-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x1376 : Shape := ⟨2, ![4096, 1376]⟩
abbrev S32x1376 : Shape := ⟨2, ![32, 1376]⟩
abbrev S32x11008 : Shape := ⟨2, ![32, 11008]⟩
abbrev S11008 : Shape := ⟨1, ![11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4096x4096 .f32) (main_arg1 : IVec S4096x1376 32) (main_arg2 : IVec S32x1376 32) (main_arg3 : FVec F S32x11008 .f32) (main_arg4 : FVec F S11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4096x4096 : Shape := ⟨2, ![4096, 4096]⟩
abbrev S4096x1376 : Shape := ⟨2, ![4096, 1376]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S4096x1376x1 : Shape := ⟨3, ![4096, 1376, 1]⟩
abbrev S1x1x8 : Shape := ⟨3, ![1, 1, 8]⟩
abbrev S4096x1376x8 : Shape := ⟨3, ![4096, 1376, 8]⟩
abbrev S_ : Shape := ⟨0, ![]⟩
abbrev S8x1 : Shape := ⟨2, ![8, 1]⟩
abbrev S4096x11008 : Shape := ⟨2, ![4096, 11008]⟩
abbrev S32x1376x1 : Shape := ⟨3, ![32, 1376, 1]⟩
abbrev S32x1376x8 : Shape := ⟨3, ![32, 1376, 8]⟩
abbrev S32x128x11008 : Shape := ⟨3, ![32, 128, 11008]⟩
abbrev S32x1x11008 : Shape := ⟨3, ![32, 1, 11008]⟩
abbrev S4096x11264 : Shape := ⟨2, ![4096, 11264]⟩
abbrev S11264 : Shape := ⟨1, ![11264]⟩
abbrev S1x11264 : Shape := ⟨2, ![1, 11264]⟩
abbrev S1024x1024 : Shape := ⟨2, ![1024, 1024]⟩
abbrev S1x1024 : Shape := ⟨2, ![1, 1024]⟩

abbrev nBuf : Space → Nat
  | .hbm => 64
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x1376, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S8, .i32⟩
  | .hbm, ⟨7, _⟩ => ⟨S4096x1376x1, .i32⟩
  | .hbm, ⟨8, _⟩ => ⟨S1x1x8, .i32⟩
  | .hbm, ⟨9, _⟩ => ⟨S4096x1376x8, .i32⟩
  | .hbm, ⟨10, _⟩ => ⟨S4096x1376x8, .i32⟩
  | .hbm, ⟨11, _⟩ => ⟨S4096x1376x8, .i32⟩
  | .hbm, ⟨12, _⟩ => ⟨S_, .i32⟩
  | .hbm, ⟨13, _⟩ => ⟨S4096x1376x8, .i32⟩
  | .hbm, ⟨14, _⟩ => ⟨S4096x1376x8, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .i32⟩
  | .hbm, ⟨22, _⟩ => ⟨S8x1, .i32⟩
  | .hbm, ⟨23, _⟩ => ⟨S4096x1376x8, .i32⟩
  | .hbm, ⟨24, _⟩ => ⟨S4096x11008, .i32⟩
  | .hbm, ⟨25, _⟩ => ⟨S4096x11008, .f32⟩
  | .hbm, ⟨26, _⟩ => ⟨S32x1376x1, .i32⟩
  | .hbm, ⟨27, _⟩ => ⟨S1x1x8, .i32⟩
  | .hbm, ⟨28, _⟩ => ⟨S32x1376x8, .i32⟩
  | .hbm, ⟨29, _⟩ => ⟨S32x1376x8, .i32⟩
  | .hbm, ⟨30, _⟩ => ⟨S32x1376x8, .i32⟩
  | .hbm, ⟨31, _⟩ => ⟨S_, .i32⟩
  | .hbm, ⟨32, _⟩ => ⟨S32x1376x8, .i32⟩
  | .hbm, ⟨33, _⟩ => ⟨S32x1376x8, .i32⟩
  | .hbm, ⟨34, _⟩ => ⟨S_, .i32⟩
  | .hbm, ⟨35, _⟩ => ⟨S8, .i32⟩
  | .hbm, ⟨36, _⟩ => ⟨S8, .i1⟩
  | .hbm, ⟨37, _⟩ => ⟨S_, .i32⟩
  | .hbm, ⟨38, _⟩ => ⟨S8, .i32⟩
  | .hbm, ⟨39, _⟩ => ⟨S8, .i32⟩
  | .hbm, ⟨40, _⟩ => ⟨S8, .i32⟩
  | .hbm, ⟨41, _⟩ => ⟨S8x1, .i32⟩
  | .hbm, ⟨42, _⟩ => ⟨S32x1376x8, .i32⟩
  | .hbm, ⟨43, _⟩ => ⟨S32x11008, .i32⟩
  | .hbm, ⟨44, _⟩ => ⟨S32x11008, .f32⟩
  | .hbm, ⟨45, _⟩ => ⟨S32x128x11008, .f32⟩
  | .hbm, ⟨46, _⟩ => ⟨S32x1x11008, .f32⟩
  | .hbm, ⟨47, _⟩ => ⟨S32x128x11008, .f32⟩
  | .hbm, ⟨48, _⟩ => ⟨S32x128x11008, .f32⟩
  | .hbm, ⟨49, _⟩ => ⟨S32x1x11008, .f32⟩
  | .hbm, ⟨50, _⟩ => ⟨S32x128x11008, .f32⟩
  | .hbm, ⟨51, _⟩ => ⟨S32x128x11008, .f32⟩
  | .hbm, ⟨52, _⟩ => ⟨S4096x11008, .f32⟩
  | .hbm, ⟨53, _⟩ => ⟨S4096x11008, .bf16⟩
  | .hbm, ⟨54, _⟩ => ⟨S_, .i32⟩
  | .hbm, ⟨55, _⟩ => ⟨S_, .bf16⟩
  | .hbm, ⟨56, _⟩ => ⟨S4096x11264, .bf16⟩
  | .hbm, ⟨57, _⟩ => ⟨S_, .i32⟩
  | .hbm, ⟨58, _⟩ => ⟨S_, .f32⟩
  | .hbm, ⟨59, _⟩ => ⟨S11264, .f32⟩
  | .hbm, ⟨60, _⟩ => ⟨S1x11264, .f32⟩
  | .hbm, ⟨61, _⟩ => ⟨S4096x4096, .bf16⟩
  | .hbm, ⟨62, _⟩ => ⟨S4096x11264, .f32⟩
  | .hbm, ⟨63, _⟩ => ⟨S4096x11008, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_7 : Ref sig .tc := ⟨.hbm, 54, rfl⟩
abbrev main_call0_v0 : Ref sig .tc := ⟨.hbm, 55, rfl⟩
abbrev main_v41 : Ref sig .tc := ⟨.hbm, 56, rfl⟩
abbrev main_c_8 : Ref sig .tc := ⟨.hbm, 57, rfl⟩
abbrev main_call1_v0 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 11, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S4096x1376_S4096x1376x1_0_1 : S4096x1376.BroadcastsInDim S4096x1376x1 (![0, 1] : Fin 2 → Fin S4096x1376x1.rank)
  bcast_S8_S1x1x8_2 : S8.BroadcastsInDim S1x1x8 (![2] : Fin 1 → Fin S1x1x8.rank)
  bcast_S4096x1376x1_S4096x1376x8_0_1_2 : S4096x1376x1.BroadcastsInDim S4096x1376x8 (![0, 1, 2] : Fin 3 → Fin S4096x1376x8.rank)
  bcast_S1x1x8_S4096x1376x8_0_1_2 : S1x1x8.BroadcastsInDim S4096x1376x8 (![0, 1, 2] : Fin 3 → Fin S4096x1376x8.rank)
  bcast_S_S4096x1376x8 : S_.BroadcastsInDim S4096x1376x8 (![] : Fin 0 → Fin S4096x1376x8.rank)
  bcast_S_S8 : S_.BroadcastsInDim S8 (![] : Fin 0 → Fin S8.rank)
  bcast_S8_S8x1_0 : S8.BroadcastsInDim S8x1 (![0] : Fin 1 → Fin S8x1.rank)
  shapeCasts_S4096x1376x8_S4096x11008 : S4096x1376x8.ShapeCasts S4096x11008
  bcast_S32x1376_S32x1376x1_0_1 : S32x1376.BroadcastsInDim S32x1376x1 (![0, 1] : Fin 2 → Fin S32x1376x1.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  shapeCasts_S4096x11008_S32x128x11008 : S4096x11008.ShapeCasts S32x128x11008
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  bitsLt_bf16_f32 : FTy.bits .bf16 < FTy.bits .f32
  pads_S4096x11008_S4096x11264_000_02560 : S4096x11008.Pads (![0, 0] : Fin 2 → Nat) ![0, 256] ![0, 0] S4096x11264
  h_S_ : 0 < S_.numel
  pads_S11008_S11264_02560 : S11008.Pads (![0] : Fin 1 → Nat) ![256] ![0] S11264
  shapeCasts_S11264_S1x11264 : S11264.ShapeCasts S1x11264
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S4096x11264_S4096x11008_0_0 : S4096x11264.Slices ![0, 0] S4096x11008
  gather_S4096x1376x8_S8x1_S4096x1376x8_01_2_n_n_2_1_409613761_wf : GatherDims.WF S4096x1376x8 S8x1 S4096x1376x8 [0, 1] [2] [] [2] [] 1 ![4096, 1376, 1]
  gather_S32x1376x8_S8x1_S32x1376x8_01_2_n_n_2_1_3213761_wf : GatherDims.WF S32x1376x8 S8x1 S32x1376x8 [0, 1] [2] [] [2] [] 1 ![32, 1376, 1]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x11264.size a
  hwx0_1 : ∀ i : grid0.Coords, EltTy.bits .bf16 = 32 ∨ (Rect.block (s := S4096x11264) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x11264.size a
  hwx0_2 : ∀ i : grid0.Coords, EltTy.bits .f32 = 32 ∨ (Rect.block (s := S1x11264) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x11264.size a
  hwx0_3 : ∀ i : grid0.Coords, EltTy.bits .f32 = 32 ∨ (Rect.block (s := S4096x11264) S1024x1024.size (cc0_transform_3 i) (hinb0_3 i)).WholeWords (EltTy.packing .f32)

variable [Facts₀]

def gather_S4096x1376x8_S8x1_S4096x1376x8_01_2_n_n_2_1_409613761 : GatherDims S4096x1376x8 S8x1 S4096x1376x8 where
  offsetDims := [0, 1]
  collapsedSliceDims := [2]
  operandBatchingDims := []
  startIndicesBatchingDims := []
  startIndexMap := [2]
  indexVectorDim := 1
  sliceSizes := ![4096, 1376, 1]
  wf := gather_S4096x1376x8_S8x1_S4096x1376x8_01_2_n_n_2_1_409613761_wf
def gather_S32x1376x8_S8x1_S32x1376x8_01_2_n_n_2_1_3213761 : GatherDims S32x1376x8 S8x1 S32x1376x8 where
  offsetDims := [0, 1]
  collapsedSliceDims := [2]
  operandBatchingDims := []
  startIndicesBatchingDims := []
  startIndexMap := [2]
  indexVectorDim := 1
  sliceSizes := ![32, 1376, 1]
  wf := gather_S32x1376x8_S8x1_S32x1376x8_01_2_n_n_2_1_3213761_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v44) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x1376 : Shape := ⟨2, ![4096, 1376]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S4096x1376x1 : Shape := ⟨3, ![4096, 1376, 1]⟩
abbrev S1x1x8 : Shape := ⟨3, ![1, 1, 8]⟩
abbrev S4096x1376x8 : Shape := ⟨3, ![4096, 1376, 8]⟩
abbrev S_ : Shape := ⟨0, ![]⟩
abbrev S8x1 : Shape := ⟨2, ![8, 1]⟩
abbrev S4096x11008 : Shape := ⟨2, ![4096, 11008]⟩
abbrev S32x1376x1 : Shape := ⟨3, ![32, 1376, 1]⟩
abbrev S32x1376x8 : Shape := ⟨3, ![32, 1376, 8]⟩
abbrev S32x128x11008 : Shape := ⟨3, ![32, 128, 11008]⟩
abbrev S32x1x11008 : Shape := ⟨3, ![32, 1, 11008]⟩
abbrev S1x11008 : Shape := ⟨2, ![1, 11008]⟩

abbrev nBuf : Space → Nat
  | .hbm => 57
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1376, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S8, .i32⟩
  | .hbm, ⟨7, _⟩ => ⟨S4096x1376x1, .i32⟩
  | .hbm, ⟨8, _⟩ => ⟨S1x1x8, .i32⟩
  | .hbm, ⟨9, _⟩ => ⟨S4096x1376x8, .i32⟩
  | .hbm, ⟨10, _⟩ => ⟨S4096x1376x8, .i32⟩
  | .hbm, ⟨11, _⟩ => ⟨S4096x1376x8, .i32⟩
  | .hbm, ⟨12, _⟩ => ⟨S_, .i32⟩
  | .hbm, ⟨13, _⟩ => ⟨S4096x1376x8, .i32⟩
  | .hbm, ⟨14, _⟩ => ⟨S4096x1376x8, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .i32⟩
  | .hbm, ⟨22, _⟩ => ⟨S8x1, .i32⟩
  | .hbm, ⟨23, _⟩ => ⟨S4096x1376x8, .i32⟩
  | .hbm, ⟨24, _⟩ => ⟨S4096x11008, .i32⟩
  | .hbm, ⟨25, _⟩ => ⟨S4096x11008, .f32⟩
  | .hbm, ⟨26, _⟩ => ⟨S32x1376x1, .i32⟩
  | .hbm, ⟨27, _⟩ => ⟨S1x1x8, .i32⟩
  | .hbm, ⟨28, _⟩ => ⟨S32x1376x8, .i32⟩
  | .hbm, ⟨29, _⟩ => ⟨S32x1376x8, .i32⟩
  | .hbm, ⟨30, _⟩ => ⟨S32x1376x8, .i32⟩
  | .hbm, ⟨31, _⟩ => ⟨S_, .i32⟩
  | .hbm, ⟨32, _⟩ => ⟨S32x1376x8, .i32⟩
  | .hbm, ⟨33, _⟩ => ⟨S32x1376x8, .i32⟩
  | .hbm, ⟨34, _⟩ => ⟨S_, .i32⟩
  | .hbm, ⟨35, _⟩ => ⟨S8, .i32⟩
  | .hbm, ⟨36, _⟩ => ⟨S8, .i1⟩
  | .hbm, ⟨37, _⟩ => ⟨S_, .i32⟩
  | .hbm, ⟨38, _⟩ => ⟨S8, .i32⟩
  | .hbm, ⟨39, _⟩ => ⟨S8, .i32⟩
  | .hbm, ⟨40, _⟩ => ⟨S8, .i32⟩
  | .hbm, ⟨41, _⟩ => ⟨S8x1, .i32⟩
  | .hbm, ⟨42, _⟩ => ⟨S32x1376x8, .i32⟩
  | .hbm, ⟨43, _⟩ => ⟨S32x11008, .i32⟩
  | .hbm, ⟨44, _⟩ => ⟨S32x11008, .f32⟩
  | .hbm, ⟨45, _⟩ => ⟨S32x128x11008, .f32⟩
  | .hbm, ⟨46, _⟩ => ⟨S32x1x11008, .f32⟩
  | .hbm, ⟨47, _⟩ => ⟨S32x128x11008, .f32⟩
  | .hbm, ⟨48, _⟩ => ⟨S32x128x11008, .f32⟩
  | .hbm, ⟨49, _⟩ => ⟨S32x1x11008, .f32⟩
  | .hbm, ⟨50, _⟩ => ⟨S32x128x11008, .f32⟩
  | .hbm, ⟨51, _⟩ => ⟨S32x128x11008, .f32⟩
  | .hbm, ⟨52, _⟩ => ⟨S4096x11008, .f32⟩
  | .hbm, ⟨53, _⟩ => ⟨S4096x11008, .f32⟩
  | .hbm, ⟨54, _⟩ => ⟨S1x11008, .f32⟩
  | .hbm, ⟨55, _⟩ => ⟨S4096x11008, .f32⟩
  | .hbm, ⟨56, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  bcast_S4096x1376_S4096x1376x1_0_1 : S4096x1376.BroadcastsInDim S4096x1376x1 (![0, 1] : Fin 2 → Fin S4096x1376x1.rank)
  bcast_S8_S1x1x8_2 : S8.BroadcastsInDim S1x1x8 (![2] : Fin 1 → Fin S1x1x8.rank)
  bcast_S4096x1376x1_S4096x1376x8_0_1_2 : S4096x1376x1.BroadcastsInDim S4096x1376x8 (![0, 1, 2] : Fin 3 → Fin S4096x1376x8.rank)
  bcast_S1x1x8_S4096x1376x8_0_1_2 : S1x1x8.BroadcastsInDim S4096x1376x8 (![0, 1, 2] : Fin 3 → Fin S4096x1376x8.rank)
  bcast_S_S4096x1376x8 : S_.BroadcastsInDim S4096x1376x8 (![] : Fin 0 → Fin S4096x1376x8.rank)
  bcast_S_S8 : S_.BroadcastsInDim S8 (![] : Fin 0 → Fin S8.rank)
  bcast_S8_S8x1_0 : S8.BroadcastsInDim S8x1 (![0] : Fin 1 → Fin S8x1.rank)
  shapeCasts_S4096x1376x8_S4096x11008 : S4096x1376x8.ShapeCasts S4096x11008
  bcast_S32x1376_S32x1376x1_0_1 : S32x1376.BroadcastsInDim S32x1376x1 (![0, 1] : Fin 2 → Fin S32x1376x1.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  shapeCasts_S4096x11008_S32x128x11008 : S4096x11008.ShapeCasts S32x128x11008
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  gather_S4096x1376x8_S8x1_S4096x1376x8_01_2_n_n_2_1_409613761_wf : GatherDims.WF S4096x1376x8 S8x1 S4096x1376x8 [0, 1] [2] [] [2] [] 1 ![4096, 1376, 1]
  gather_S32x1376x8_S8x1_S32x1376x8_01_2_n_n_2_1_3213761_wf : GatherDims.WF S32x1376x8 S8x1 S32x1376x8 [0, 1] [2] [] [2] [] 1 ![32, 1376, 1]
  dot_S4096x4096_S4096x11008_S4096x11008_1_0_0_1_n_n_wf : DotDims.WF S4096x4096 S4096x11008 S4096x11008 [1] [0] [0] [1] [] []

variable [Facts₀]

def gather_S4096x1376x8_S8x1_S4096x1376x8_01_2_n_n_2_1_409613761 : GatherDims S4096x1376x8 S8x1 S4096x1376x8 where
  offsetDims := [0, 1]
  collapsedSliceDims := [2]
  operandBatchingDims := []
  startIndicesBatchingDims := []
  startIndexMap := [2]
  indexVectorDim := 1
  sliceSizes := ![4096, 1376, 1]
  wf := gather_S4096x1376x8_S8x1_S4096x1376x8_01_2_n_n_2_1_409613761_wf
def gather_S32x1376x8_S8x1_S32x1376x8_01_2_n_n_2_1_3213761 : GatherDims S32x1376x8 S8x1 S32x1376x8 where
  offsetDims := [0, 1]
  collapsedSliceDims := [2]
  operandBatchingDims := []
  startIndicesBatchingDims := []
  startIndexMap := [2]
  indexVectorDim := 1
  sliceSizes := ![32, 1376, 1]
  wf := gather_S32x1376x8_S8x1_S32x1376x8_01_2_n_n_2_1_3213761_wf
def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf

class Facts : Prop extends Facts₀ where

variable [Facts]
-- ==== Proof.KerPieces.lean ====
/-
  What one run of the kernel body leaves behind, case by case, as pure functions of what it loaded.

  The body keeps a running total in a scratch block of 1024 × 1024 entries. With `acc` the scratch on entry, `xb` the
  block of the left matrix, `wb` the block of the weight matrix and `bb` the 1 × 1024 bias block:
    • at the first step along the contraction axis the scratch is first set to zero, so it ends as  zero + xb · wb;
    • at every other step it ends as  acc + xb · wb;
    • at the last step, moreover, the output block is written:  (acc + xb · wb) + bb  (the bias row added to every row).
  Here `k0_pay1` is the zero block, `k0_pay2 acc xb wb` is  acc + xb · wb  and `k0_pay3 s bb` is  s + bb.
-/
import proofs.«144524_j79843442032788_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.BodyValue

open Cert.KernelIdeal Cert.KernelIdeal.Gen

variable {F : FTy → Type} [FloatOps F]

/-- The zero offset of a whole-block access. -/
theorem hz : (![0, 0] : Fin 2 → Nat) = fun _ => 0 := funext fun a => by fin_cases a <;> rfl

/-- A step that is neither first nor last: the scratch, holding `acc`, ends as `acc + xb · wb`. -/
theorem scratch_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i) (x0 x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h7.read_unread, h3.read_unread, h4.read_unread, View.ld_unit_zero (S := S1024x1024) hz]

/-- The last step: the scratch, holding `acc`, ends as `acc + xb · wb` as well. -/
theorem scratch_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h7.read_unread, h3.read_unread, h4.read_unread, View.ld_unit_zero (S := S1024x1024) hz]

/-- The last step: the output block is the new running total, read back from the scratch, plus the bias block. -/
theorem out_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x1024) _ hz]
  simp only [View.readAt_eq_ld, h7.read_unread, h3.read_unread, h4.read_unread, h5.read_unread,
    View.ld_unit_zero (S := S1024x1024) hz, View.ld_unit_zero (S := S1x1024) hz]

/-- The first step: the scratch is zeroed, read back, and ends as `zero + xb · wb`. -/
theorem scratch_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i) (x0 x1 : Vec F S1024x1024 .bf16) (x2 : Vec F S1x1024 .f32) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

end Cert.KernelIdeal.BodyValue

end
-- ==== Proof.LibPlainProduct.lean ====
/-
  The plain matrix product at the exact extended reals, read at an index given by coordinates.
  For dimension numbers that contract the left operand's axis 1 with the right operand's axis 0 (no batch axes),
  the contraction sum of an `[M, K]` by `[K, N]` product at `(p, q)` is `∑ k, l (p, k) * r (k, q)` over the `K`
  coordinates of the shared axis — for the matrix unit's product into a zero accumulator and for the host's
  `dot_general` alike. General in the three extents and in the operands' formats.
-/
import Idealize.ShloMosaic.Lib.ValueIdx
import Idealize.ShloMosaic.PureOps.Ideal.Laws

namespace Idealize.ShloMosaic.ValueIdx

open Idealize.ShloMosaic

/-- The left operand's row coordinate of a plain product is the result's row, whatever the contraction index. -/
theorem plain_lhsIdx_row {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).lhsIdx j k 0).val = (j 0).val := by
  unfold DotDims.lhsIdx
  rw [dif_neg List.not_mem_nil, dif_pos (List.mem_singleton.mpr rfl)]
  rfl

/-- The right operand's column coordinate of a plain product is the result's column, whatever the contraction index. -/
theorem plain_rhsIdx_col {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).rhsIdx j k 1).val = (j 1).val := by
  unfold DotDims.rhsIdx
  rw [dif_neg List.not_mem_nil, dif_pos (List.mem_singleton.mpr rfl)]
  rfl

/-- The contraction sum of a plain product, re-indexed by the shared axis's coordinate. -/
theorem plain_contr_sum {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 (⟨[1], [0], [0], [1], [], [], wf⟩ : DotDims ⟨2, ![M, K]⟩ ⟨2, ![K, N]⟩ ⟨2, ![M, N]⟩) K rfl rfl).symm k) = ix2 p k :=
    funext fun a => Fin.ext (by
      match a with
      | ⟨0, _⟩ => exact plain_lhsIdx_row wf _ _
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 (⟨[1], [0], [0], [1], [], [], wf⟩ : DotDims ⟨2, ![M, K]⟩ ⟨2, ![K, N]⟩ ⟨2, ![M, N]⟩) K rfl rfl).symm k) = ix2 k q :=
    funext fun a => Fin.ext (by
      match a with
      | ⟨0, _⟩ => exact (DotDims.rhsIdx_val_of_single _ rfl _ _).trans hk
      | ⟨1, _⟩ => exact plain_rhsIdx_col wf _ _)
  rw [el, er]

/-- The matrix unit's plain product into a zero accumulator, at `(p, q)`. -/
theorem matmul_zero_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact plain_contr_sum d hlc hrc hln hrn hlb hrb l r p q

/-- The host's plain `dot_general`, at `(p, q)`. -/
theorem dotGeneral_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact plain_contr_sum d hlc hrc hln hrn hlb hrb l r p q

end Idealize.ShloMosaic.ValueIdx
-- ==== Proof.KerPayload.lean ====
/-
  The body's three pure terms read at an entry, on the extended reals.

  At row p and column q of a 1024 × 1024 block:
    • the zero block is 0;
    • `acc + xb · wb` is  acc(p, q) + Σ_{kk < 1024} xb(p, kk) · wb(kk, q)  — the matrix unit's product into a zero
      accumulator is the plain contraction sum, and the casts of a block to its own shape change nothing;
    • `s + bb` is  s(p, q) + bb(0, q)  — the one bias row is broadcast over the 1024 rows.
-/
import proofs.«144524_j79843442032788_1_alg».proof.Proof.Gen.KernelIdeal.Skeleton
import proofs.«144524_j79843442032788_1_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.BodyValue

open Cert.KernelIdeal Cert.KernelIdeal.Gen

/-- The zero block, at any entry. -/
theorem pay1_apply (p q : Fin 1024) : (k0_pay1 (F := Ideal)) (ix2 p q) = 0 := by
  unfold k0_pay1
  simp only [shapeCast_self]
  exact Ideal.ofBits_zero_f32

/-- The running total after one more block product, at an entry. -/
theorem pay2_apply (acc : FVec Ideal S1024x1024 .f32) (xb wb : FVec Ideal S1024x1024 .bf16) (p q : Fin 1024) :
    k0_pay2 (F := Ideal) acc xb wb (ix2 p q) = acc (ix2 p q) + ∑ kk : Fin 1024, xb (ix2 p kk) * wb (ix2 kk q) := by
  unfold k0_pay2
  simp only [shapeCast_self]
  rw [addf_apply]
  exact congrArg (acc (ix2 p q) + ·)
    (matmul_zero_plain_apply dot_S1024x1024_S1024x1024_S1024x1024_1_0_0_1_n_n rfl rfl rfl rfl rfl rfl none xb wb p q)

/-- The output block: the running total plus the bias row, at an entry. -/
theorem pay3_apply (s : FVec Ideal S1024x1024 .f32) (bb : FVec Ideal S1x1024 .f32) (p q : Fin 1024) :
    k0_pay3 (F := Ideal) s bb (ix2 p q) = s (ix2 p q) + bb (ix2 (0 : Fin 1) q) := by
  unfold k0_pay3
  simp only [shapeCast_self]
  rw [addf_apply]
  exact congrArg (s (ix2 p q) + ·) (broadcastTo_1b_ab_apply bb broadcasts_S1x1024_S1024x1024 p q)

end Cert.KernelIdeal.BodyValue

end
-- ==== Proof.KerAccum.lean ====
/-
  The running total across the grid.

  The grid has 4 × 11 × 4 = 176 positions; position n stands for the block row i = n / 44, the block column
  j = n / 4 % 11 and the contraction step k = n % 4.  At position n the body sees
    • the block (i, k) of the left matrix X:      xb(p, kk) = X(1024·i + p, 1024·k + kk),
    • the block (k, j) of the padded weights Wp:   wb(kk, q) = Wp(1024·k + kk, 1024·j + q),
    • the block (0, j) of the padded bias row Bp:  bb(0, q)  = Bp(0, 1024·j + q).
  X, Wp and Bp are the three arrays as the region finds them; nothing is assumed about how the host produced them.

  By induction on the position, after position n the scratch holds at (p, q) the partial contraction
      Σ_{kb ≤ k} Σ_{kk < 1024} X(1024·i + p, 1024·kb + kk) · Wp(1024·kb + kk, 1024·j + q):
  the first step of a run of four starts it from zero, each later step adds its block product to what the step before
  left.  At a last step (k = 3) the output block holds that total plus Bp(0, 1024·j + q).
  Arrays are read at natural-number coordinates taken modulo the extents, which changes nothing inside the extents and
  keeps the statements free of bound proofs.
-/
import proofs.«144524_j79843442032788_1_alg».proof.Proof.KerPieces
import proofs.«144524_j79843442032788_1_alg».proof.Proof.KerPayload
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.BodyValue

open Cert.KernelIdeal Cert.KernelIdeal.Gen

variable (m : (ℓ : Loc nD τ sig) → Buf (Elt Ideal) ℓ)

/-- The left matrix as the region finds it, at row `r` and column `k`. -/
def xAt (c : Dev nD) (r k : ℕ) : EReal :=
  (V m c main_v44 : FVec Ideal S4096x4096 .bf16) (ix2 ⟨r % 4096, Nat.mod_lt _ (by norm_num)⟩ ⟨k % 4096, Nat.mod_lt _ (by norm_num)⟩)

/-- The padded weight matrix as the region finds it, at row `k` and column `o`. -/
def wAt (c : Dev nD) (k o : ℕ) : EReal :=
  (V m c main_v41 : FVec Ideal S4096x11264 .bf16) (ix2 ⟨k % 4096, Nat.mod_lt _ (by norm_num)⟩ ⟨o % 11264, Nat.mod_lt _ (by norm_num)⟩)

/-- The padded bias row as the region finds it, at column `o`. -/
def bAt (c : Dev nD) (o : ℕ) : EReal :=
  (V m c main_v43 : FVec Ideal S1x11264 .f32) (ix2 (0 : Fin 1) ⟨o % 11264, Nat.mod_lt _ (by norm_num)⟩)

/-- The block indices of the four windows at position `t`: block row `t / 44`, block column `t / 4 % 11`, step `t % 4`. -/
theorem idx_facts : ∀ t : Fin cfg0.N,
    win0_0.index t (0 : Fin 2) = t.val / 44 ∧ win0_0.index t (1 : Fin 2) = t.val % 4
    ∧ win0_1.index t (0 : Fin 2) = t.val % 4 ∧ win0_1.index t (1 : Fin 2) = t.val / 4 % 11
    ∧ win0_2.index t (0 : Fin 2) = 0 ∧ win0_2.index t (1 : Fin 2) = t.val / 4 % 11
    ∧ win0_3.index t (0 : Fin 2) = t.val / 44 ∧ win0_3.index t (1 : Fin 2) = t.val / 4 % 11 :=
  (by decide +kernel : ∀ t : Fin grid0.N, _)

/-- The left block at position `t`, at an entry. -/
theorem xblk_apply (c : Dev nD) (t : Fin cfg0.N) (p kk : Fin 1024) :
    (iblk m c 0 t : FVec Ideal S1024x1024 .bf16) (ix2 p kk) = xAt m c (t.val / 44 * 1024 + p.val) (t.val % 4 * 1024 + kk.val) := by
  have hN : t.val < 176 := lt_of_lt_of_eq t.isLt (show cfg0.N = 176 from N_0)
  obtain ⟨e0, e1, -⟩ := idx_facts t
  unfold iblk xAt
  rw [View.read_apply]
  show V m c main_v44 _ = V m c main_v44 _
  refine congrArg (V m c main_v44) (funext fun a => Fin.ext ?_)
  match a with
  | ⟨0, _⟩ => show win0_0.index t (0 : Fin 2) * 1024 + 1 * p.val = (t.val / 44 * 1024 + p.val) % 4096; rw [e0]; have := p.isLt; omega
  | ⟨1, _⟩ => show win0_0.index t (1 : Fin 2) * 1024 + 1 * kk.val = (t.val % 4 * 1024 + kk.val) % 4096; rw [e1]; have := kk.isLt; omega

/-- The weight block at position `t`, at an entry. -/
theorem wblk_apply (c : Dev nD) (t : Fin cfg0.N) (kk q : Fin 1024) :
    (iblk m c 1 t : FVec Ideal S1024x1024 .bf16) (ix2 kk q) = wAt m c (t.val % 4 * 1024 + kk.val) (t.val / 4 % 11 * 1024 + q.val) := by
  have hN : t.val < 176 := lt_of_lt_of_eq t.isLt (show cfg0.N = 176 from N_0)
  obtain ⟨-, -, e0, e1, -⟩ := idx_facts t
  unfold iblk wAt
  rw [View.read_apply]
  show V m c main_v41 _ = V m c main_v41 _
  refine congrArg (V m c main_v41) (funext fun a => Fin.ext ?_)
  match a with
  | ⟨0, _⟩ => show win0_1.index t (0 : Fin 2) * 1024 + 1 * kk.val = (t.val % 4 * 1024 + kk.val) % 4096; rw [e0]; have := kk.isLt; omega
  | ⟨1, _⟩ => show win0_1.index t (1 : Fin 2) * 1024 + 1 * q.val = (t.val / 4 % 11 * 1024 + q.val) % 11264; rw [e1]; have := q.isLt; omega

/-- The bias block at position `t`, at an entry of its one row. -/
theorem bblk_apply (c : Dev nD) (t : Fin cfg0.N) (q : Fin 1024) :
    (iblk m c 2 t : FVec Ideal S1x1024 .f32) (ix2 (0 : Fin 1) q) = bAt m c (t.val / 4 % 11 * 1024 + q.val) := by
  have hN : t.val < 176 := lt_of_lt_of_eq t.isLt (show cfg0.N = 176 from N_0)
  obtain ⟨-, -, -, -, e0, e1, -⟩ := idx_facts t
  unfold iblk bAt
  rw [View.read_apply]
  show V m c main_v43 _ = V m c main_v43 _
  refine congrArg (V m c main_v43) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = (t.val / 4 % 11 * 1024 + q.val) % 11264; rw [e1]; have := q.isLt; omega

/-- One block product: block row `i`, block column `j`, contraction block `kb`, at entry (p, q). -/
def term (c : Dev nD) (i j kb : ℕ) (p q : Fin 1024) : EReal :=
  ∑ kk : Fin 1024, xAt m c (i * 1024 + p.val) (kb * 1024 + kk.val) * wAt m c (kb * 1024 + kk.val) (j * 1024 + q.val)

/-- The partial contraction over the blocks 0, …, k. -/
def acc (c : Dev nD) (i j k : ℕ) (p q : Fin 1024) : EReal :=
  ∑ kb ∈ Finset.range (k + 1), term m c i j kb p q

/-- The block product of two blocks whose entries are those of the arrays at position `t`'s places, at an entry. -/
theorem blockprod_apply (c : Dev nD) (t : Fin cfg0.N) (p q : Fin 1024) (xb wb : FVec Ideal S1024x1024 .bf16)
    (hx : ∀ kk : Fin 1024, xb (ix2 p kk) = xAt m c (t.val / 44 * 1024 + p.val) (t.val % 4 * 1024 + kk.val))
    (hw : ∀ kk : Fin 1024, wb (ix2 kk q) = wAt m c (t.val % 4 * 1024 + kk.val) (t.val / 4 % 11 * 1024 + q.val)) :
    ∑ kk : Fin 1024, xb (ix2 p kk) * wb (ix2 kk q) = term m c (t.val / 44) (t.val / 4 % 11) (t.val % 4) p q :=
  Finset.sum_congr rfl fun kk _ => by rw [hx kk, hw kk]

/-- A first step: the scratch ends as the first block product. -/
theorem scratch_first (c : Dev nD) (t : Fin cfg0.N) (h0 : t.val % 4 = 0) (p q : Fin 1024) :
    (outsAt0 m c t.val t.isLt).2 (ix2 p q) = term m c (t.val / 44) (t.val / 4 % 11) (t.val % 4) p q := by
  have h1 : ¬t.val % 4 = 3 := by omega
  rw [outsAt0_A m c t h0 h1]
  dsimp only
  rw [scratch_A]
  refine (pay2_apply _ _ _ p q).trans ?_
  rw [pay1_apply, zero_add]
  exact blockprod_apply m c t p q _ _ (xblk_apply m c t p) (fun kk => wblk_apply m c t kk q)

/-- A later step: the scratch ends as what the step before left plus this step's block product. -/
theorem scratch_later (c : Dev nD) (t : Fin cfg0.N) (h0 : ¬t.val % 4 = 0) (p q : Fin 1024) :
    (outsAt0 m c t.val t.isLt).2 (ix2 p q)
      = (outsAt0 m c (t.val - 1) (Nat.lt_of_le_of_lt (Nat.sub_le _ _) t.isLt)).2 (ix2 p q)
        + term m c (t.val / 44) (t.val / 4 % 11) (t.val % 4) p q := by
  by_cases h1 : t.val % 4 = 3
  · rw [outsAt0_C m c t h0 h1]
    dsimp only
    rw [scratch_C]
    refine (pay2_apply _ _ _ p q).trans ?_
    rw [blockprod_apply m c t p q _ _ (xblk_apply m c t p) (fun kk => wblk_apply m c t kk q)]
  · rw [outsAt0_B m c t h0 h1]
    dsimp only
    rw [scratch_B]
    refine (pay2_apply _ _ _ p q).trans ?_
    rw [blockprod_apply m c t p q _ _ (xblk_apply m c t p) (fun kk => wblk_apply m c t kk q)]

/-- A last step: the output block is the scratch's new contents plus the bias row. -/
theorem out_last (c : Dev nD) (t : Fin cfg0.N) (h1 : t.val % 4 = 3) (p q : Fin 1024) :
    (outsAt0 m c t.val t.isLt).1 (ix2 p q) = (outsAt0 m c t.val t.isLt).2 (ix2 p q) + bAt m c (t.val / 4 % 11 * 1024 + q.val) := by
  have h0 : ¬t.val % 4 = 0 := by omega
  rw [outsAt0_C m c t h0 h1]
  dsimp only
  rw [out_C, scratch_C]
  refine (pay3_apply _ _ p q).trans ?_
  rw [bblk_apply m c t q]

/-- THE ACCUMULATION: after position `n` the scratch holds the partial contraction over the blocks 0, …, n % 4 of block row
    `n / 44` against block column `n / 4 % 11`. -/
theorem scratch_eq (c : Dev nD) : ∀ (n : ℕ) (hn : n < cfg0.N) (p q : Fin 1024),
    (outsAt0 m c n hn).2 (ix2 p q) = acc m c (n / 44) (n / 4 % 11) (n % 4) p q
  | 0, hn, p, q => by
    rw [show (outsAt0 m c 0 hn).2 (ix2 p q) = _ from scratch_first m c ⟨0, hn⟩ rfl p q]
    unfold acc
    rw [Finset.sum_range_one]
    rfl
  | n + 1, hn, p, q => by
    by_cases h0 : (n + 1) % 4 = 0
    · rw [show (outsAt0 m c (n + 1) hn).2 (ix2 p q) = _ from scratch_first m c ⟨n + 1, hn⟩ h0 p q]
      show term m c ((n + 1) / 44) ((n + 1) / 4 % 11) ((n + 1) % 4) p q = _
      unfold acc
      rw [h0, zero_add, Finset.sum_range_one]
    · rw [show (outsAt0 m c (n + 1) hn).2 (ix2 p q) = _ from scratch_later m c ⟨n + 1, hn⟩ h0 p q]
      show (outsAt0 m c n _).2 (ix2 p q) + term m c ((n + 1) / 44) ((n + 1) / 4 % 11) ((n + 1) % 4) p q = _
      rw [scratch_eq c n (Nat.lt_of_succ_lt hn) p q]
      have e1 : (n + 1) / 44 = n / 44 := by omega
      have e2 : (n + 1) / 4 % 11 = n / 4 % 11 := by omega
      have e3 : (n + 1) % 4 = n % 4 + 1 := by omega
      rw [e1, e2, e3]
      unfold acc
      rw [Finset.sum_range_succ _ (n % 4 + 1)]

end Cert.KernelIdeal.BodyValue

end
-- ==== Proof.KerCover.lean ====
/-
  The kernel's output array is covered by the blocks it writes back.

  The output array has 4096 rows and 11264 columns and is written back in blocks of 1024 by 1024: 4 block rows by
  11 block columns. The grid has 4 · 11 · 4 = 176 positions; position t works on block row t / 44 and block column
  t / 4 mod 11, at accumulation step t mod 4, and the block is written back at the last step, t mod 4 = 3.

  So the entry at row r and column o lies in the block of row r / 1024 and column o / 1024, which position
  t = ((r / 1024) · 11 + o / 1024) · 4 + 3 writes back: t < 176 because r / 1024 < 4 and o / 1024 < 11, t mod 4 = 3,
  t / 44 = r / 1024 and t / 4 mod 11 = o / 1024. Every entry of the array is therefore in some written-back block.
-/
import proofs.«144524_j79843442032788_1_alg».proof.Proof.Gen.KernelIdeal.Frame
import Idealize.ShloMosaic.Lib.Pipeline.Value

noncomputable section

namespace Cert.KernelIdeal.BodyValue

open Cert.KernelIdeal Cert.KernelIdeal.Gen Idealize.ShloMosaic Idealize.ShloMosaic.TcCoe Idealize.SL.Sem

/-- The output window's block indices in closed form, decided over the 176 grid positions: the block row is
    t / 44 and the block column is t / 4 mod 11. -/
theorem out_idx_facts : ∀ t : Fin cfg0.N, win0_3.index t (0 : Fin 2) = t.val / 44
    ∧ win0_3.index t (1 : Fin 2) = t.val / 4 % 11 :=
  (by decide +kernel : ∀ t : Fin grid0.N, _)

/-- An entry of the output array is in position `t`'s block iff on each axis its coordinate is within the 1024
    coordinates that start at 1024 times the block's index. -/
theorem mem_out_blk (t : Fin cfg0.N) (i : S4096x11264.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v45).slice (win0_3.rect t)).set ↔ _
  rw [View.set_slice_whole, Rect.mem_set_unit]
  exact Iff.rfl

/-- Every entry of the output array is in the block some position writes back: the entry at (r, o) in the block
    written back at position ((r / 1024) · 11 + o / 1024) · 4 + 3. -/
theorem cover3 (i : S4096x11264.Idx) :
    ∃ t : Fin cfg0.N, (cfg0.win 3).flush t = true ∧ i ∈ ((cfg0.win 3).blk t).view.set := by
  have hi0 : (i 0).val < 4096 := (i 0).isLt
  have hi1 : (i 1).val < 11264 := (i 1).isLt
  have hlt : (((i 0).val / 1024) * 11 + (i 1).val / 1024) * 4 + 3 < cfg0.N :=
    lt_of_lt_of_eq (by omega : (((i 0).val / 1024) * 11 + (i 1).val / 1024) * 4 + 3 < 176) (show cfg0.N = 176 from N_0).symm
  obtain ⟨t, htv⟩ : ∃ t : Fin cfg0.N, t.val = (((i 0).val / 1024) * 11 + (i 1).val / 1024) * 4 + 3 := ⟨⟨_, hlt⟩, rfl⟩
  obtain ⟨e0, e1⟩ := out_idx_facts t
  refine ⟨t, (flush0_3 t).mpr (by omega), ?_⟩
  rw [mem_out_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

end Cert.KernelIdeal.BodyValue

end
-- ==== Proof.LibBlockedSum.lean ====
/-
  Blocked and padded finite sums.

  A sum over an index range of length n * b can be taken block by block: an outer sum over the n blocks and
  an inner sum over the b positions of a block, the position (j, k) standing for the index j * b + k. A sum
  over a range whose tail holds only zeros equals the sum over the range without the tail. Together: a blocked
  sum over a zero-padded range equals the plain sum over the unpadded range. A running total that starts from
  the first block and adds one block per step equals the sum of the blocks seen so far.

  Everything is stated over an arbitrary additive commutative monoid: only commutativity, associativity and the
  neutrality of zero are used, so no finiteness or distributivity hypothesis appears. The last section states
  the instance on the extended reals with a product of two zero-padded factors.
-/
import Mathlib.Algebra.BigOperators.Fin
import Mathlib.Algebra.BigOperators.Intervals
import Mathlib.Data.EReal.Operations

namespace Cert.LibBlockedSum

open Finset

variable {M : Type*} [AddCommMonoid M]

/-- A sum over n * b consecutive indices equals the sum over n blocks of the sums over the b positions
    of each block, the position k of block j being the index j * b + k. -/
theorem sum_blocks (n b : ℕ) (f : ℕ → M) :
    ∑ j : Fin n, ∑ k : Fin b, f (j.val * b + k.val) = ∑ i : Fin (n * b), f i.val := by
  rw [← Fintype.sum_prod_type']
  refine Fintype.sum_equiv finProdFinEquiv _ _ ?_
  rintro ⟨j, k⟩
  have e : (finProdFinEquiv (j, k)).val = j.val * b + k.val := by
    show k.val + b * j.val = j.val * b + k.val
    rw [Nat.mul_comm, Nat.add_comm]
  rw [e]

/-- A sum over N indices whose terms vanish from index K on equals the sum over the first K indices. -/
theorem sum_padded (K N : ℕ) (h : K ≤ N) (f : ℕ → M) (hz : ∀ i, K ≤ i → i < N → f i = 0) :
    ∑ i : Fin N, f i.val = ∑ i : Fin K, f i.val := by
  rw [Fin.sum_univ_eq_sum_range f N, Fin.sum_univ_eq_sum_range f K]
  symm
  refine Finset.sum_subset (Finset.range_subset_range.2 h) ?_
  intro i hiN hiK
  exact hz i (Nat.le_of_not_lt fun hlt => hiK (Finset.mem_range.2 hlt)) (Finset.mem_range.1 hiN)

/-- A blocked sum (n blocks of b positions) over a range whose terms vanish from index K on equals the
    plain sum over the first K indices. -/
theorem blocked_padded (n b K : ℕ) (h : K ≤ n * b) (f : ℕ → M) (hz : ∀ i, K ≤ i → i < n * b → f i = 0) :
    ∑ j : Fin n, ∑ k : Fin b, f (j.val * b + k.val) = ∑ i : Fin K, f i.val :=
  (sum_blocks n b f).trans (sum_padded K (n * b) h f hz)

/-- A running total that starts at the first block and adds the next block at every step equals, after step
    j, the sum of the blocks 0, …, j. -/
theorem acc_eq_sum (acc blk : ℕ → M) (h0 : acc 0 = blk 0) (hs : ∀ j, acc (j + 1) = acc j + blk (j + 1))
    (j : ℕ) : acc j = ∑ i : Fin (j + 1), blk i.val := by
  induction j with
  | zero => rw [h0, Fin.sum_univ_one]; rfl
  | succ j ih => rw [hs, ih, Fin.sum_univ_castSucc (fun i : Fin (j + 1 + 1) => blk i.val)]; rfl

/-- The same with the first step written as an addition to a zero total. -/
theorem acc_eq_sum_of_zero_add (acc blk : ℕ → M) (h0 : acc 0 = 0 + blk 0)
    (hs : ∀ j, acc (j + 1) = acc j + blk (j + 1)) (j : ℕ) : acc j = ∑ i : Fin (j + 1), blk i.val :=
  acc_eq_sum acc blk (h0.trans (zero_add _)) hs j

/-- The running total after step j, each block being itself a sum over b positions of a function whose
    terms vanish from index K on, with (j + 1) * b indices covered so far: the plain sum over the first K
    indices. -/
theorem acc_blocked_padded (b K : ℕ) (f : ℕ → M) (acc : ℕ → M)
    (h0 : acc 0 = ∑ k : Fin b, f (0 * b + k.val))
    (hs : ∀ j, acc (j + 1) = acc j + ∑ k : Fin b, f ((j + 1) * b + k.val))
    (j : ℕ) (h : K ≤ (j + 1) * b) (hz : ∀ i, K ≤ i → i < (j + 1) * b → f i = 0) :
    acc j = ∑ i : Fin K, f i.val := by
  rw [acc_eq_sum acc (fun j => ∑ k : Fin b, f (j * b + k.val)) h0 hs j]
  exact blocked_padded (j + 1) b K h f hz

section EReal

/-- The product of two factors that are zero from index K on is zero from index K on (on the extended
    reals 0 * 0 = 0; nothing is assumed about the factors below K). -/
theorem padded_mul_eq_zero (K : ℕ) (v c : ℕ → EReal) (i : ℕ) (h : K ≤ i) :
    (if i < K then v i else 0) * (if i < K then c i else 0) = 0 := by
  rw [if_neg (Nat.not_lt.2 h), if_neg (Nat.not_lt.2 h), mul_zero]

/-- The contraction of a zero-padded row with a zero-padded column, taken in n blocks of b, equals the
    contraction of the unpadded row and column: general extents. -/
theorem blocked_padded_dot (n b K : ℕ) (h : K ≤ n * b) (v c : ℕ → EReal) :
    ∑ j : Fin n, ∑ k : Fin b,
        (if j.val * b + k.val < K then v (j.val * b + k.val) else 0) *
          (if j.val * b + k.val < K then c (j.val * b + k.val) else 0) =
      ∑ f : Fin K, v f.val * c f.val := by
  rw [blocked_padded n b K h (fun i => (if i < K then v i else 0) * (if i < K then c i else 0))
    (fun i hK _ => padded_mul_eq_zero K v c i hK)]
  refine Finset.sum_congr rfl fun i _ => ?_
  rw [if_pos i.isLt, if_pos i.isLt]

/-- The instance with 40 blocks of 512 positions covering 20480 indices, of which the first 20000 carry data
    and the last 480 are zero padding. -/
theorem blocked_padded_dot_40_512 (v c : ℕ → EReal) :
    ∑ j : Fin 40, ∑ k : Fin 512,
        (if j.val * 512 + k.val < 20000 then v (j.val * 512 + k.val) else 0) *
          (if j.val * 512 + k.val < 20000 then c (j.val * 512 + k.val) else 0) =
      ∑ f : Fin 20000, v f.val * c f.val :=
  blocked_padded_dot 40 512 20000 (by norm_num) v c

/-- The same instance for padded functions given by name. -/
theorem blocked_padded_dot_40_512' (v c vp cp : ℕ → EReal)
    (hv : ∀ i, vp i = if i < 20000 then v i else 0) (hc : ∀ i, cp i = if i < 20000 then c i else 0) :
    ∑ j : Fin 40, ∑ k : Fin 512, vp (j.val * 512 + k.val) * cp (j.val * 512 + k.val) =
      ∑ f : Fin 20000, v f.val * c f.val := by
  rw [← blocked_padded_dot_40_512 v c]
  refine Finset.sum_congr rfl fun j _ => Finset.sum_congr rfl fun k _ => ?_
  rw [hv, hc]

end EReal

end Cert.LibBlockedSum
-- ==== Proof.KerFinal.lean ====
/-
  The region's result array.

  The output block (i, j) is written back once, after the last of its four contraction steps, and then holds at (p, q)
      Σ_{kb < 4} Σ_{kk < 1024} X(1024·i + p, 1024·kb + kk) · Wp(1024·kb + kk, 1024·j + q)  +  Bp(0, 1024·j + q).
  Four consecutive blocks of 1024 indices are the 4096 indices of the contraction axis, and a sum taken block by block is
  the whole sum (addition on the extended reals is commutative and associative), so this is
      Σ_{k < 4096} X(1024·i + p, k) · Wp(k, 1024·j + q)  +  Bp(0, 1024·j + q),
  the entry (1024·i + p, 1024·j + q) of ONE function of the three arrays.  The 4 × 11 written-back blocks tile the
  4096 × 11264 array, so after the run the whole array is that function.
-/
import proofs.«144524_j79843442032788_1_alg».proof.Proof.KerAccum
import proofs.«144524_j79843442032788_1_alg».proof.Proof.KerCover
import proofs.«144524_j79843442032788_1_alg».proof.Proof.LibBlockedSum
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.BodyValue

open Cert.KernelIdeal Cert.KernelIdeal.Gen

variable (m : (ℓ : Loc nD τ sig) → Buf (Elt Ideal) ℓ)

/-- The region's result, entry by entry: the row of the left matrix against the column of the padded weights, plus the
    column's padded bias. -/
def regionOut (c : Dev nD) : FVec Ideal S4096x11264 .f32 := fun i =>
  (∑ k : Fin 4096, xAt m c (i 0).val k.val * wAt m c k.val (i 1).val) + bAt m c (i 1).val

/-- Four blocks of 1024 make the whole contraction over 4096. -/
theorem acc_three (c : Dev nD) (i j : ℕ) (p q : Fin 1024) :
    acc m c i j 3 p q = ∑ k : Fin 4096, xAt m c (i * 1024 + p.val) k.val * wAt m c k.val (j * 1024 + q.val) := by
  unfold acc term
  rw [Finset.sum_range]
  exact Cert.LibBlockedSum.sum_blocks 4 1024 (fun k => xAt m c (i * 1024 + p.val) k * wAt m c k (j * 1024 + q.val))

/-- What a last step leaves in the output block, at an entry, is the result's entry at that place of the array. -/
theorem out_entry (c : Dev nD) (t : Fin cfg0.N) (h3 : t.val % 4 = 3) (p q : Fin 1024) :
    (outsAt0 m c t.val t.isLt).1 (ix2 p q) = regionOut m c (((cfg0.win 3).blk t).view.emb (ix2 p q)) := by
  have hN : t.val < 176 := lt_of_lt_of_eq t.isLt (show cfg0.N = 176 from N_0)
  obtain ⟨-, -, -, -, -, -, e0, e1⟩ := idx_facts t
  have a0 : ((((cfg0.win 3).blk t).view.emb (ix2 p q)) 0).val = t.val / 44 * 1024 + p.val := by
    show win0_3.index t (0 : Fin 2) * 1024 + 1 * p.val = _
    rw [e0]; omega
  have a1 : ((((cfg0.win 3).blk t).view.emb (ix2 p q)) 1).val = t.val / 4 % 11 * 1024 + q.val := by
    show win0_3.index t (1 : Fin 2) * 1024 + 1 * q.val = _
    rw [e1]; omega
  rw [out_last m c t h3 p q, scratch_eq m c t.val t.isLt p q, h3, acc_three]
  show _ = (∑ k : Fin 4096, xAt m c ((((cfg0.win 3).blk t).view.emb (ix2 p q)) 0).val k.val
      * wAt m c k.val ((((cfg0.win 3).blk t).view.emb (ix2 p q)) 1).val) + bAt m c ((((cfg0.win 3).blk t).view.emb (ix2 p q)) 1).val
  rw [a0, a1]

/-- WHAT A WRITING POSITION WRITES BACK is its block of the result. -/
theorem flushed_eq (c : Dev nD) (t : Fin cfg0.N) (hf : (cfg0.win 3).flush t = true) :
    (dats m 0 c).flushed 3 t = ((cfg0.win 3).blk t).view.read (Elt Ideal) (regionOut m c) := by
  have h3 : t.val % 4 = 3 := (flush0_3 t).mp hf
  show (cfg0.win 3).cut (grid0.coords t) ((dats m 0 c).after 3 t) = _
  rw [after0_3]
  refine funext fun (y : S1024x1024.Idx) => ?_
  show (outsAt0 m c t.val t.isLt).1 y = regionOut m c (((cfg0.win 3).blk t).view.emb y)
  rw [eq_ix2 y]
  exact out_entry m c t h3 (y 0) (y 1)

/-- THE ARRAY AFTER THE RUN: the written-back blocks tile it, so it is the result everywhere. -/
theorem region_result (c : Dev nD) : (dats m 0 c).arrAt 3 cfg0.N = regionOut m c :=
  (dats m 0 c).arrAt_eq_of_cover 3 (regionOut m c) (flushed_eq m c) (fun i => cover3 i)

end Cert.KernelIdeal.BodyValue

end
-- ==== Proof.KerWeights.lean ====
/-
  The dequantized weight matrix, as the program's host operations compute it from the packed weights, the packed
  zero points and the scales: every packed 32-bit word is cut into eight 4-bit values (shift right by 0, 4, …, 28 and
  mask with 15), the eight values of a word are put back in their logical order (the fixed permutation
  0, 4, 1, 5, 2, 6, 3, 7), the values are converted to floats, and entry (k, o) is (w(k, o) − z(k / 128, o)) · s(k / 128, o).
  It is carried as one function and never opened: the reference computes the same function of the same arguments.
-/
import proofs.«144524_j79843442032788_1_alg».proof.KernelIdeal

noncomputable section

namespace Cert.KernelIdeal.HostValue

open Idealize.ShloMosaic Cert.KernelIdeal

variable {F : FTy → Type} [FloatOps F] [Facts]
open Facts₀ Facts

/-- The weight matrix [4096, 11008] from the packed weights [4096, 1376], the packed zero points [32, 1376] and the
    scales [32, 11008]. -/
def weights (qw : (⟨S4096x1376, .i32⟩ : BufTy).Contents (Elt F)) (qz : (⟨S32x1376, .i32⟩ : BufTy).Contents (Elt F))
    (sc : (⟨S32x11008, .f32⟩ : BufTy).Contents (Elt F)) : (⟨S4096x11008, .f32⟩ : BufTy).Contents (Elt F) :=
  let c : (⟨S8, .i32⟩ : BufTy).Contents (Elt F) := (fun i => lit0 (S8.rowMajor i))
  let c_0 : (⟨S8, .i32⟩ : BufTy).Contents (Elt F) := (fun i => lit1 (S8.rowMajor i))
  let v0 := (broadcastInDim S4096x1376x1 ![0, 1] bcast_S4096x1376_S4096x1376x1_0_1 : (⟨S4096x1376, .i32⟩ : BufTy).Contents (Elt F) → (⟨S4096x1376x1, .i32⟩ : BufTy).Contents (Elt F)) qw
  let v1 := (broadcastInDim S1x1x8 ![2] bcast_S8_S1x1x8_2 : (⟨S8, .i32⟩ : BufTy).Contents (Elt F) → (⟨S1x1x8, .i32⟩ : BufTy).Contents (Elt F)) c
  let v2 := (broadcastInDim S4096x1376x8 ![0, 1, 2] bcast_S4096x1376x1_S4096x1376x8_0_1_2 : (⟨S4096x1376x1, .i32⟩ : BufTy).Contents (Elt F) → (⟨S4096x1376x8, .i32⟩ : BufTy).Contents (Elt F)) v0
  let v3 := (broadcastInDim S4096x1376x8 ![0, 1, 2] bcast_S1x1x8_S4096x1376x8_0_1_2 : (⟨S1x1x8, .i32⟩ : BufTy).Contents (Elt F) → (⟨S4096x1376x8, .i32⟩ : BufTy).Contents (Elt F)) v1
  let v4 := (Host.shrsi : (⟨S4096x1376x8, .i32⟩ : BufTy).Contents (Elt F) → (⟨S4096x1376x8, .i32⟩ : BufTy).Contents (Elt F) → (⟨S4096x1376x8, .i32⟩ : BufTy).Contents (Elt F)) v2 v3
  let c_1 := (constantI S_ 32 15#32)
  let v5 := (broadcastInDim S4096x1376x8 ![] bcast_S_S4096x1376x8 : (⟨S_, .i32⟩ : BufTy).Contents (Elt F) → (⟨S4096x1376x8, .i32⟩ : BufTy).Contents (Elt F)) c_1
  let v6 := (andi : (⟨S4096x1376x8, .i32⟩ : BufTy).Contents (Elt F) → (⟨S4096x1376x8, .i32⟩ : BufTy).Contents (Elt F) → (⟨S4096x1376x8, .i32⟩ : BufTy).Contents (Elt F)) v4 v5
  let c_2 := (constantI S_ 32 0#32)
  let v7 := (broadcastInDim S8 ![] bcast_S_S8 : (⟨S_, .i32⟩ : BufTy).Contents (Elt F) → (⟨S8, .i32⟩ : BufTy).Contents (Elt F)) c_2
  let v8 := (cmpi .slt : (⟨S8, .i32⟩ : BufTy).Contents (Elt F) → (⟨S8, .i32⟩ : BufTy).Contents (Elt F) → (⟨S8, .i1⟩ : BufTy).Contents (Elt F)) c_0 v7
  let c_3 := (constantI S_ 32 8#32)
  let v9 := (broadcastInDim S8 ![] bcast_S_S8 : (⟨S_, .i32⟩ : BufTy).Contents (Elt F) → (⟨S8, .i32⟩ : BufTy).Contents (Elt F)) c_3
  let v10 := (addi : (⟨S8, .i32⟩ : BufTy).Contents (Elt F) → (⟨S8, .i32⟩ : BufTy).Contents (Elt F) → (⟨S8, .i32⟩ : BufTy).Contents (Elt F)) c_0 v9
  let v11 := (select : (⟨S8, .i1⟩ : BufTy).Contents (Elt F) → (⟨S8, .i32⟩ : BufTy).Contents (Elt F) → (⟨S8, .i32⟩ : BufTy).Contents (Elt F) → (⟨S8, .i32⟩ : BufTy).Contents (Elt F)) v8 v10 c_0
  let v12 := (broadcastInDim S8x1 ![0] bcast_S8_S8x1_0 : (⟨S8, .i32⟩ : BufTy).Contents (Elt F) → (⟨S8x1, .i32⟩ : BufTy).Contents (Elt F)) v11
  let v13 := ((fun x i => Host.gather gather_S4096x1376x8_S8x1_S4096x1376x8_01_2_n_n_2_1_409613761 x i) : (⟨S4096x1376x8, .i32⟩ : BufTy).Contents (Elt F) → (⟨S8x1, .i32⟩ : BufTy).Contents (Elt F) → (⟨S4096x1376x8, .i32⟩ : BufTy).Contents (Elt F)) v6 v12
  let v14 := shapeCast S4096x11008 v13 shapeCasts_S4096x1376x8_S4096x11008
  let v15 := (sitofp .f32 : (⟨S4096x11008, .i32⟩ : BufTy).Contents (Elt F) → (⟨S4096x11008, .f32⟩ : BufTy).Contents (Elt F)) v14
  let v16 := (broadcastInDim S32x1376x1 ![0, 1] bcast_S32x1376_S32x1376x1_0_1 : (⟨S32x1376, .i32⟩ : BufTy).Contents (Elt F) → (⟨S32x1376x1, .i32⟩ : BufTy).Contents (Elt F)) qz
  let v17 := (broadcastInDim S1x1x8 ![2] bcast_S8_S1x1x8_2 : (⟨S8, .i32⟩ : BufTy).Contents (Elt F) → (⟨S1x1x8, .i32⟩ : BufTy).Contents (Elt F)) c
  let v18 := (broadcastInDim S32x1376x8 ![0, 1, 2] bcast_S32x1376x1_S32x1376x8_0_1_2 : (⟨S32x1376x1, .i32⟩ : BufTy).Contents (Elt F) → (⟨S32x1376x8, .i32⟩ : BufTy).Contents (Elt F)) v16
  let v19 := (broadcastInDim S32x1376x8 ![0, 1, 2] bcast_S1x1x8_S32x1376x8_0_1_2 : (⟨S1x1x8, .i32⟩ : BufTy).Contents (Elt F) → (⟨S32x1376x8, .i32⟩ : BufTy).Contents (Elt F)) v17
  let v20 := (Host.shrsi : (⟨S32x1376x8, .i32⟩ : BufTy).Contents (Elt F) → (⟨S32x1376x8, .i32⟩ : BufTy).Contents (Elt F) → (⟨S32x1376x8, .i32⟩ : BufTy).Contents (Elt F)) v18 v19
  let c_4 := (constantI S_ 32 15#32)
  let v21 := (broadcastInDim S32x1376x8 ![] bcast_S_S32x1376x8 : (⟨S_, .i32⟩ : BufTy).Contents (Elt F) → (⟨S32x1376x8, .i32⟩ : BufTy).Contents (Elt F)) c_4
  let v22 := (andi : (⟨S32x1376x8, .i32⟩ : BufTy).Contents (Elt F) → (⟨S32x1376x8, .i32⟩ : BufTy).Contents (Elt F) → (⟨S32x1376x8, .i32⟩ : BufTy).Contents (Elt F)) v20 v21
  let c_5 := (constantI S_ 32 0#32)
  let v23 := (broadcastInDim S8 ![] bcast_S_S8 : (⟨S_, .i32⟩ : BufTy).Contents (Elt F) → (⟨S8, .i32⟩ : BufTy).Contents (Elt F)) c_5
  let v24 := (cmpi .slt : (⟨S8, .i32⟩ : BufTy).Contents (Elt F) → (⟨S8, .i32⟩ : BufTy).Contents (Elt F) → (⟨S8, .i1⟩ : BufTy).Contents (Elt F)) c_0 v23
  let c_6 := (constantI S_ 32 8#32)
  let v25 := (broadcastInDim S8 ![] bcast_S_S8 : (⟨S_, .i32⟩ : BufTy).Contents (Elt F) → (⟨S8, .i32⟩ : BufTy).Contents (Elt F)) c_6
  let v26 := (addi : (⟨S8, .i32⟩ : BufTy).Contents (Elt F) → (⟨S8, .i32⟩ : BufTy).Contents (Elt F) → (⟨S8, .i32⟩ : BufTy).Contents (Elt F)) c_0 v25
  let v27 := (select : (⟨S8, .i1⟩ : BufTy).Contents (Elt F) → (⟨S8, .i32⟩ : BufTy).Contents (Elt F) → (⟨S8, .i32⟩ : BufTy).Contents (Elt F) → (⟨S8, .i32⟩ : BufTy).Contents (Elt F)) v24 v26 c_0
  let v28 := (broadcastInDim S8x1 ![0] bcast_S8_S8x1_0 : (⟨S8, .i32⟩ : BufTy).Contents (Elt F) → (⟨S8x1, .i32⟩ : BufTy).Contents (Elt F)) v27
  let v29 := ((fun x i => Host.gather gather_S32x1376x8_S8x1_S32x1376x8_01_2_n_n_2_1_3213761 x i) : (⟨S32x1376x8, .i32⟩ : BufTy).Contents (Elt F) → (⟨S8x1, .i32⟩ : BufTy).Contents (Elt F) → (⟨S32x1376x8, .i32⟩ : BufTy).Contents (Elt F)) v22 v28
  let v30 := shapeCast S32x11008 v29 shapeCasts_S32x1376x8_S32x11008
  let v31 := (sitofp .f32 : (⟨S32x11008, .i32⟩ : BufTy).Contents (Elt F) → (⟨S32x11008, .f32⟩ : BufTy).Contents (Elt F)) v30
  let v32 := shapeCast S32x128x11008 v15 shapeCasts_S4096x11008_S32x128x11008
  let v33 := (broadcastInDim S32x1x11008 ![0, 2] bcast_S32x11008_S32x1x11008_0_2 : (⟨S32x11008, .f32⟩ : BufTy).Contents (Elt F) → (⟨S32x1x11008, .f32⟩ : BufTy).Contents (Elt F)) v31
  let v34 := (broadcastInDim S32x128x11008 ![0, 1, 2] bcast_S32x1x11008_S32x128x11008_0_1_2 : (⟨S32x1x11008, .f32⟩ : BufTy).Contents (Elt F) → (⟨S32x128x11008, .f32⟩ : BufTy).Contents (Elt F)) v33
  let v35 := (subf : (⟨S32x128x11008, .f32⟩ : BufTy).Contents (Elt F) → (⟨S32x128x11008, .f32⟩ : BufTy).Contents (Elt F) → (⟨S32x128x11008, .f32⟩ : BufTy).Contents (Elt F)) v32 v34
  let v36 := (broadcastInDim S32x1x11008 ![0, 2] bcast_S32x11008_S32x1x11008_0_2 : (⟨S32x11008, .f32⟩ : BufTy).Contents (Elt F) → (⟨S32x1x11008, .f32⟩ : BufTy).Contents (Elt F)) sc
  let v37 := (broadcastInDim S32x128x11008 ![0, 1, 2] bcast_S32x1x11008_S32x128x11008_0_1_2 : (⟨S32x1x11008, .f32⟩ : BufTy).Contents (Elt F) → (⟨S32x128x11008, .f32⟩ : BufTy).Contents (Elt F)) v36
  let v38 := (mulf : (⟨S32x128x11008, .f32⟩ : BufTy).Contents (Elt F) → (⟨S32x128x11008, .f32⟩ : BufTy).Contents (Elt F) → (⟨S32x128x11008, .f32⟩ : BufTy).Contents (Elt F)) v35 v37
  let v39 := shapeCast S4096x11008 v38 shapeCasts_S32x128x11008_S4096x11008
  v39

end Cert.KernelIdeal.HostValue

end
-- ==== Proof.LibPadHigh.lean ====
/-
  A two-dimensional array padded at the high end of one axis, read at an index given by its coordinates.

  Padding an [a, b] array with extra rows after the last row (no padding in front, none between entries) gives an
  [a', b] array whose entry at row i and column q is the operand's entry (i, q) when i < a, and the padding value
  otherwise. Padding with extra columns after the last column is the same statement with the roles of the two
  coordinates exchanged. The integer zero converted to a float is the zero of the extended reals, so a pad whose
  padding value is that conversion pads with zeros.
-/
import Idealize.ShloMosaic.Lib.KernelVsHost
import Idealize.ShloMosaic.Lib.ValueLayout

noncomputable section

namespace Cert.LibPadHigh

open Idealize.ShloMosaic Idealize.ShloMosaic.ValueIdx

variable {α : Type}

/-- Extra rows after the last: row i of the padded array is row i of the operand when i < a, else the padding value. -/
theorem pad_rows_high_apply {a a' b e : ℕ} (x : (⟨2, ![a, b]⟩ : Shape).Idx → α) {u : Shape} (v : u.Idx → α)
    (hp : (⟨2, ![a, b]⟩ : Shape).Pads (![0, 0] : Fin 2 → Nat) ![e, 0] ![0, 0] ⟨2, ![a', b]⟩) (hu : 0 < u.numel)
    (i : Fin a') (q : Fin b) :
    pad ⟨2, ![a', b]⟩ (![0, 0] : Fin 2 → Nat) ![e, 0] ![0, 0] x v hp hu (ix2 i q)
      = if h : i.val < a then x (ix2 ⟨i.val, h⟩ q) else v (Shape.Idx.first hu) := by
  by_cases h : i.val < a
  · rw [dif_pos h]
    refine pad_apply_of_inside _ _ _ x v hp hu (ix2 i q) (ix2 ⟨i.val, h⟩ q) fun ax => ?_
    match ax with
    | ⟨0, _⟩ => show i.val = 0 + i.val * (0 + 1); omega
    | ⟨1, _⟩ => show q.val = 0 + q.val * (0 + 1); omega
  · rw [dif_neg h]
    refine pad_apply_of_not_inside _ _ _ x v hp hu (ix2 i q) (0 : Fin 2) fun hh => h ?_
    have h3 : (i.val - 0) / (0 + 1) < a := hh.2.2
    omega

/-- Extra columns after the last: column i of the padded array is column i of the operand when i < b, else the
    padding value. -/
theorem pad_cols_high_apply {a b b' e : ℕ} (x : (⟨2, ![a, b]⟩ : Shape).Idx → α) {u : Shape} (v : u.Idx → α)
    (hp : (⟨2, ![a, b]⟩ : Shape).Pads (![0, 0] : Fin 2 → Nat) ![0, e] ![0, 0] ⟨2, ![a, b']⟩) (hu : 0 < u.numel)
    (p : Fin a) (i : Fin b') :
    pad ⟨2, ![a, b']⟩ (![0, 0] : Fin 2 → Nat) ![0, e] ![0, 0] x v hp hu (ix2 p i)
      = if h : i.val < b then x (ix2 p ⟨i.val, h⟩) else v (Shape.Idx.first hu) := by
  by_cases h : i.val < b
  · rw [dif_pos h]
    refine pad_apply_of_inside _ _ _ x v hp hu (ix2 p i) (ix2 p ⟨i.val, h⟩) fun ax => ?_
    match ax with
    | ⟨0, _⟩ => show p.val = 0 + p.val * (0 + 1); omega
    | ⟨1, _⟩ => show i.val = 0 + i.val * (0 + 1); omega
  · rw [dif_neg h]
    refine pad_apply_of_not_inside _ _ _ x v hp hu (ix2 p i) (1 : Fin 2) fun hh => h ?_
    have h3 : (i.val - 0) / (0 + 1) < b := hh.2.2
    omega

/-- The integer zero word, converted to a float at the exact values, is zero at every index. -/
theorem sitofp_constantI_zero_apply {s : Shape} {φ : FTy} (j : s.Idx) :
    (sitofp φ (constantI s 32 0#32) : FVec Ideal s φ) j = 0 := by
  show ((((0#32 : BitVec 32).toInt : ℤ) : ℝ) : EReal) = 0
  simp

end Cert.LibPadHigh

end
-- ==== Proof.KerHost.lean ====
/-
  The three arrays the matrix-product region reads, as the host operations before it leave them, at the exact values
  (every float an extended real).

  * The left factor is the input x [4096, 4096] converted to the 16-bit format. At the exact values a conversion to a
    narrower format is the identity, so the array is x itself.
  * The right factor is the weight matrix [4096, 11008] (one function of the packed weights, the packed zero points and
    the scales, never opened here) converted to the 16-bit format — again the identity — and then padded with 256 extra
    columns after the last one, to [4096, 11264]. Read at a column o < 11008 it is the weight matrix's entry (k, o); the
    padding value (the integer zero converted to a float) is only ever read at the columns o ≥ 11008, which the final
    result drops, so it is not needed here.
  * The bias row is the bias vector [11008] padded with 256 extra entries at its high end, to [11264], and then given a
    leading axis of length one, [1, 11264]. Read at (0, o) with o < 11008 it is the bias vector's entry o.

  Each array is first written as the composition of the operations that produce it, applied to the program's
  arguments, and then read at an index given by its coordinates.
-/
import proofs.«144524_j79843442032788_1_alg».proof.Proof.Gen.KernelIdeal.Frame
import proofs.«144524_j79843442032788_1_alg».proof.Proof.KerWeights
import proofs.«144524_j79843442032788_1_alg».proof.Proof.LibPadHigh
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.KernelIdeal.HostValue

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- One axis padded at its high end only (nothing in front, nothing between entries), read below the operand's
    length: the operand's entry there. The padding value is not needed. -/
theorem pad_high_apply_of_lt {a a' e : ℕ} {α : Type} (x : (⟨1, ![a]⟩ : Shape).Idx → α) {u : Shape} (v : u.Idx → α)
    (hp : (⟨1, ![a]⟩ : Shape).Pads (![0] : Fin 1 → Nat) ![e] ![0] ⟨1, ![a']⟩) (hu : 0 < u.numel)
    (i : Fin a') (h : i.val < a) :
    pad ⟨1, ![a']⟩ (![0] : Fin 1 → Nat) ![e] ![0] x v hp hu (ix1 i) = x (ix1 ⟨i.val, h⟩) := by
  refine pad_apply_of_inside _ _ _ x v hp hu (ix1 i) (ix1 ⟨i.val, h⟩) fun ax => ?_
  match ax with
  | ⟨0, _⟩ => show i.val = 0 + i.val * (0 + 1); omega

/-- The left factor as a whole: the input x converted to the 16-bit format. -/
theorem V_x_eq (c : Dev nD) :
    @Eq (FVec Ideal S4096x4096 .bf16) (V m c main_v44)
      (truncf .bf16 (m ((c : Thread nD τ).loc main_arg0) : FVec Ideal S4096x4096 .f32) bitsLt_bf16_f32) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  simp only [StableHlo.TRef.unary, StableHlo.TRef.binary, StableHlo.TRef.of]
  after_results_simp

/-- The left factor at row r and column k is x(r, k): the conversion to the narrower format is the identity on
    extended reals. -/
theorem V_x (c : Dev nD) (r k : Fin 4096) :
    (V m c main_v44 : FVec Ideal S4096x4096 .bf16) (ix2 r k) = m ((c : Thread nD τ).loc main_arg0) (ix2 r k) := by
  rw [V_x_eq m c]
  rfl

/-- The right factor as a whole: the weight matrix (as one function of the packed weights, the packed zero points and
    the scales) converted to the 16-bit format and padded with 256 columns of the converted integer zero after the last
    column. The two sides are the same composition of the same operations, the weight matrix's own operations being
    the definition of that function. -/
theorem V_w_eq (c : Dev nD) :
    @Eq (FVec Ideal S4096x11264 .bf16) (V m c main_v41)
      (pad S4096x11264 ![0, 0] ![0, 256] ![0, 0]
        (truncf .bf16 (weights (F := Ideal) (m ((c : Thread nD τ).loc main_arg1)) (m ((c : Thread nD τ).loc main_arg2))
          (m ((c : Thread nD τ).loc main_arg3))) bitsLt_bf16_f32)
        (sitofp .bf16 (constantI S_ 32 0#32)) pads_S4096x11008_S4096x11264_000_02560 h_S_) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  simp only [StableHlo.TRef.unary, StableHlo.TRef.binary, StableHlo.TRef.of]
  after_results_simp
  rfl

/-- The right factor at row k and an unpadded column o < 11008 is the weight matrix's entry (k, o): a column below
    the operand's width is inside the operand, and the conversion to the narrower format is the identity. -/
theorem V_w (c : Dev nD) (k : Fin 4096) (o : Fin 11264) (ho : o.val < 11008) :
    (V m c main_v41 : FVec Ideal S4096x11264 .bf16) (ix2 k o)
      = weights (F := Ideal) (m ((c : Thread nD τ).loc main_arg1)) (m ((c : Thread nD τ).loc main_arg2))
          (m ((c : Thread nD τ).loc main_arg3)) (ix2 k ⟨o.val, ho⟩) := by
  rw [V_w_eq m c, Cert.LibPadHigh.pad_cols_high_apply, dif_pos ho]
  rfl

/-- The bias row as a whole: the bias vector padded with 256 entries of the converted integer zero at its high end,
    then given a leading axis of length one. -/
theorem V_b_eq (c : Dev nD) :
    @Eq (FVec Ideal S1x11264 .f32) (V m c main_v43)
      (shapeCast S1x11264 (pad S11264 ![0] ![256] ![0] (m ((c : Thread nD τ).loc main_arg4) : FVec Ideal S11008 .f32)
        (sitofp .f32 (constantI S_ 32 0#32) : FVec Ideal S_ .f32) pads_S11008_S11264_02560 h_S_) shapeCasts_S11264_S1x11264) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  simp only [StableHlo.TRef.unary, StableHlo.TRef.binary, StableHlo.TRef.of]
  after_results_simp
  rfl

/-- The bias row at (0, o) with o < 11008 is the bias vector's entry o: the leading unit axis does not move the
    row-major position, and a position below the operand's length is inside the operand. -/
theorem V_b (c : Dev nD) (o : Fin 11264) (ho : o.val < 11008) :
    (V m c main_v43 : FVec Ideal S1x11264 .f32) (ix2 (0 : Fin 1) o) = m ((c : Thread nD τ).loc main_arg4) (ix1 ⟨o.val, ho⟩) := by
  rw [V_b_eq m c, shapeCast_a_1a_apply, pad_high_apply_of_lt _ _ _ _ o ho]

end Cert.KernelIdeal.HostValue

end
-- ==== Proof.KerTail.lean ====
/-
  The one host operation after the matrix-product region: a slice.

  The region leaves its result in an array of 4096 rows and 11264 columns. The program's result is that array's
  columns 0 … 11007: a slice with offset (0, 0) and unit strides, so its entry at row r and column o is the array's
  entry at row r and column o, for every o < 11008. Nothing else happens after the region, and the slice reads no
  other array.
-/
import proofs.«144524_j79843442032788_1_alg».proof.Proof.Gen.KernelIdeal.Frame
import proofs.«144524_j79843442032788_1_alg».proof.Proof.KerWeights
import proofs.«144524_j79843442032788_1_alg».proof.Proof.LibPadHigh
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.KernelIdeal.HostValue

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The program's result at row r and column o < 11008 is the region's result array at (r, o), whatever that array
    holds (X): the slice starts at (0, 0), so each coordinate is kept as it is. -/
theorem tail_apply (c : Dev nD) (X : FVec Ideal S4096x11264 .f32) (hX : (dats m 0 c).arrAt 3 cfg0.N = X) (r : Fin 4096) (o : Fin 11008) :
    (Pipeline.afterTail₀ cfgs (dats m) 0 (V0 m) [hostOps1] c main_v46 : FVec Ideal S4096x11008 .f32) (ix2 r o) = X (ix2 r ⟨o.val, by omega⟩) := by
  unfold Pipeline.afterTail₀
  show StableHlo.after hostOps1 _ (Proc.devRef .tc main_v46) (ix2 r o) = _
  after_results
  -- the slice's operand is the region's output array, which holds X
  have hA : @Eq (FVec Ideal S4096x11264 .f32)
      (Pipeline.withArrays (cfgs 0).spec c (V0 m c) (fun w => (dats m 0 c).arrAt w (cfgs 0).N) (Proc.devRef .tc main_v45)) X :=
    (Pipeline.withArrays_arr spec0 launch0.win.arr_inj c _ _ 3).trans hX
  rw [hA]
  -- a slice at offset (0, 0): coordinate a of the operand's index is 0 + coordinate a of the result's index
  unfold extractStridedSlice
  congr 1
  funext a
  apply Fin.ext
  match a with
  | ⟨0, _⟩ => show 0 + r.val = r.val; omega
  | ⟨1, _⟩ => show 0 + o.val = o.val; omega

end Cert.KernelIdeal.HostValue

end
-- ==== Proof.GemmSpec.lean ====
/-
  The specification both programs meet: a matrix product with a bias row, on the extended reals.

  For a matrix x of 4096 rows and 4096 columns, a weight matrix w of 4096 rows and 11008 columns and a bias vector b of
  length 11008, the result has 4096 rows and 11008 columns and its entry at row r and column o is

      Σ_k x(r, k) · w(k, o)  +  b(o),        k over the 4096 columns of x.

  Nothing is assumed about the entries: the sum and the products are those of the extended reals, where addition is
  commutative and associative, which is all that taking the sum block by block needs.
-/
import Idealize.ShloMosaic.Lib.ValueIdx
import Idealize.ShloMosaic.PureOps.Ideal

noncomputable section

namespace Cert.GemmSpec

open Idealize.ShloMosaic Idealize.ShloMosaic.ValueIdx

/-- The entry at row `r` and column `o`: the row of `x` against the column of `w`, plus the column's bias. -/
def entry (x : FVec Ideal ⟨2, ![4096, 4096]⟩ .f32) (w : FVec Ideal ⟨2, ![4096, 11008]⟩ .f32) (b : FVec Ideal ⟨1, ![11008]⟩ .f32)
    (r : Fin 4096) (o : Fin 11008) : EReal :=
  (∑ k : Fin 4096, x (ix2 r k) * w (ix2 k o)) + b (ix1 o)

/-- The whole result, entry by entry. -/
def gemmBias (x : FVec Ideal ⟨2, ![4096, 4096]⟩ .f32) (w : FVec Ideal ⟨2, ![4096, 11008]⟩ .f32) (b : FVec Ideal ⟨1, ![11008]⟩ .f32) :
    FVec Ideal ⟨2, ![4096, 11008]⟩ .f32 :=
  fun i => entry x w b (i 0) (i 1)

/-- Read at an index given by its coordinates. -/
theorem gemmBias_apply (x : FVec Ideal ⟨2, ![4096, 4096]⟩ .f32) (w : FVec Ideal ⟨2, ![4096, 11008]⟩ .f32) (b : FVec Ideal ⟨1, ![11008]⟩ .f32)
    (r : Fin 4096) (o : Fin 11008) : gemmBias x w b (ix2 r o) = entry x w b r o := rfl

/-- A function on the result's indices that has the specified entry at every pair of coordinates is the result. -/
theorem eq_gemmBias (x : FVec Ideal ⟨2, ![4096, 4096]⟩ .f32) (w : FVec Ideal ⟨2, ![4096, 11008]⟩ .f32) (b : FVec Ideal ⟨1, ![11008]⟩ .f32)
    (g : FVec Ideal ⟨2, ![4096, 11008]⟩ .f32) (h : ∀ (r : Fin 4096) (o : Fin 11008), g (ix2 r o) = entry x w b r o) :
    g = gemmBias x w b := by
  funext i
  obtain ⟨r, o, rfl⟩ : ∃ (r : Fin 4096) (o : Fin 11008), i = ix2 r o := ⟨i 0, i 1, eq_ix2 i⟩
  exact h r o

end Cert.GemmSpec

end
-- ==== Proof.KerRun.lean ====
/-
  The kernel program's run, read as the specification.

  The host operations before the region leave three arrays: the left matrix x (its cast to a narrower float format is the
  identity on the extended reals), the weight matrix with 256 extra columns, and the bias with 256 extra entries laid out
  as one row.  The region's result array holds, at (r, o') with o' < 11264,
      Σ_{k < 4096} X(r, k) · Wp(k, o')  +  Bp(0, o').
  The one host operation after the region keeps the columns o < 11008, and there the padded arrays are the unpadded ones:
  Wp(k, o) = W(k, o) and Bp(0, o) = bias(o).  So the program's result is  Σ_k x(r, k) · W(k, o) + bias(o)  at every
  (r, o), which is the specification; the padding values are never read.
-/
import proofs.«144524_j79843442032788_1_alg».proof.Proof.KerFinal
import proofs.«144524_j79843442032788_1_alg».proof.Proof.KerHost
import proofs.«144524_j79843442032788_1_alg».proof.Proof.KerTail
import proofs.«144524_j79843442032788_1_alg».proof.Proof.GemmSpec

set_option maxRecDepth 16384

noncomputable section

open Idealize.ShloMosaic Idealize.ShloMosaic.TcCoe Idealize.ShloMosaic.ValueIdx Idealize.SL.Sem
open Idealize.ShloMosaic.Pipeline (Dat)

namespace Cert.KernelIdeal.RunValue

open Cert.KernelIdeal Cert.KernelIdeal.Gen Cert.KernelIdeal.BodyValue Cert.KernelIdeal.HostValue

variable (m : (ℓ : Loc nD τ sig) → Buf (Elt Ideal) ℓ)

/-- A coordinate below an extent, reduced modulo that extent, is itself. -/
theorem fin_mod {n : ℕ} (h : 0 < n) (r : Fin n) : (⟨r.val % n, Nat.mod_lt _ h⟩ : Fin n) = r :=
  Fin.ext (Nat.mod_eq_of_lt r.isLt)

/-- The left matrix as the region finds it is the argument x. -/
theorem xAt_eq (c : Dev nD) (r k : Fin 4096) : xAt m c r.val k.val = m ((c.tc : Thread nD τ).loc main_arg0) (ix2 r k) := by
  unfold xAt
  rw [fin_mod (by norm_num) r, fin_mod (by norm_num) k]
  exact V_x m c r k

/-- The padded weights as the region finds them, at an unpadded column, are the weight matrix. -/
theorem wAt_eq (c : Dev nD) (k : Fin 4096) (o : Fin 11008) :
    wAt m c k.val o.val = weights (F := Ideal) (m ((c.tc : Thread nD τ).loc main_arg1)) (m ((c.tc : Thread nD τ).loc main_arg2)) (m ((c.tc : Thread nD τ).loc main_arg3)) (ix2 k o) := by
  have ho : o.val < 11264 := by have := o.isLt; omega
  unfold wAt
  rw [fin_mod (by norm_num) k,
    show (⟨o.val % 11264, Nat.mod_lt _ (by norm_num)⟩ : Fin 11264) = ⟨o.val, ho⟩ from Fin.ext (Nat.mod_eq_of_lt ho)]
  exact V_w m c k ⟨o.val, ho⟩ o.isLt

/-- The padded bias row as the region finds it, at an unpadded column, is the bias. -/
theorem bAt_eq (c : Dev nD) (o : Fin 11008) : bAt m c o.val = m ((c.tc : Thread nD τ).loc main_arg4) (ix1 o) := by
  have ho : o.val < 11264 := by have := o.isLt; omega
  unfold bAt
  rw [show (⟨o.val % 11264, Nat.mod_lt _ (by norm_num)⟩ : Fin 11264) = ⟨o.val, ho⟩ from Fin.ext (Nat.mod_eq_of_lt ho)]
  exact V_b m c ⟨o.val, ho⟩ o.isLt

/-- The region's result at an unpadded column is the specified entry. -/
theorem region_entry (c : Dev nD) (r : Fin 4096) (o : Fin 11008) (ho : o.val < 11264) :
    regionOut m c (ix2 r ⟨o.val, ho⟩)
      = Cert.GemmSpec.entry (m ((c.tc : Thread nD τ).loc main_arg0)) (weights (F := Ideal) (m ((c.tc : Thread nD τ).loc main_arg1)) (m ((c.tc : Thread nD τ).loc main_arg2)) (m ((c.tc : Thread nD τ).loc main_arg3))) (m ((c.tc : Thread nD τ).loc main_arg4)) r o := by
  unfold Cert.GemmSpec.entry
  show (∑ k : Fin 4096, xAt m c r.val k.val * wAt m c k.val o.val) + bAt m c o.val = _
  rw [bAt_eq m c o]
  exact congrArg (· + m ((c.tc : Thread nD τ).loc main_arg4) (ix1 o)) (Finset.sum_congr rfl fun k _ => by rw [xAt_eq m c r k, wAt_eq m c k o])

/-- What the program's last buffer holds after the host operation that follows the region: the specification. -/
theorem result_eq (c : Dev nD) :
    (Pipeline.afterTail₀ cfgs (dats m) 0 (V0 m) [hostOps1] c main_v46 : FVec Ideal S4096x11008 .f32)
      = Cert.GemmSpec.gemmBias (m ((c.tc : Thread nD τ).loc main_arg0)) (weights (F := Ideal) (m ((c.tc : Thread nD τ).loc main_arg1)) (m ((c.tc : Thread nD τ).loc main_arg2)) (m ((c.tc : Thread nD τ).loc main_arg3))) (m ((c.tc : Thread nD τ).loc main_arg4)) :=
  Cert.GemmSpec.eq_gemmBias _ _ _ _ fun r o =>
    (tail_apply m c (regionOut m c) (region_result m c) r o).trans (region_entry m c r o _)

/-- THE RUN, READ: every weakly fair execution ends with the result buffer at the specification of the argument
    arrays, and the arguments as they were. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v46)
        = Cert.GemmSpec.gemmBias (m ((c.tc : Thread nD τ).loc main_arg0)) (weights (F := Ideal) (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v46 (Pipeline.mem_restRefs_of main_v46 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.RunValue

end
-- ==== Proof.RefWeights.lean ====
/-
  The dequantized weight matrix, as the program's host operations compute it from the packed weights, the packed
  zero points and the scales: every packed 32-bit word is cut into eight 4-bit values (shift right by 0, 4, …, 28 and
  mask with 15), the eight values of a word are put back in their logical order (the fixed permutation
  0, 4, 1, 5, 2, 6, 3, 7), the values are converted to floats, and entry (k, o) is (w(k, o) − z(k / 128, o)) · s(k / 128, o).
  It is carried as one function and never opened: the kernel's program computes the same function of the same arguments.
-/
import proofs.«144524_j79843442032788_1_alg».proof.ReferenceIdeal

noncomputable section

namespace Cert.ReferenceIdeal.RefValue

open Idealize.ShloMosaic Cert.ReferenceIdeal

variable {F : FTy → Type} [FloatOps F] [Facts]
open Facts₀ Facts

/-- The weight matrix [4096, 11008] from the packed weights [4096, 1376], the packed zero points [32, 1376] and the
    scales [32, 11008]. -/
def weights (qw : (⟨S4096x1376, .i32⟩ : BufTy).Contents (Elt F)) (qz : (⟨S32x1376, .i32⟩ : BufTy).Contents (Elt F))
    (sc : (⟨S32x11008, .f32⟩ : BufTy).Contents (Elt F)) : (⟨S4096x11008, .f32⟩ : BufTy).Contents (Elt F) :=
  let c : (⟨S8, .i32⟩ : BufTy).Contents (Elt F) := (fun i => lit0 (S8.rowMajor i))
  let c_0 : (⟨S8, .i32⟩ : BufTy).Contents (Elt F) := (fun i => lit1 (S8.rowMajor i))
  let v0 := (broadcastInDim S4096x1376x1 ![0, 1] bcast_S4096x1376_S4096x1376x1_0_1 : (⟨S4096x1376, .i32⟩ : BufTy).Contents (Elt F) → (⟨S4096x1376x1, .i32⟩ : BufTy).Contents (Elt F)) qw
  let v1 := (broadcastInDim S1x1x8 ![2] bcast_S8_S1x1x8_2 : (⟨S8, .i32⟩ : BufTy).Contents (Elt F) → (⟨S1x1x8, .i32⟩ : BufTy).Contents (Elt F)) c
  let v2 := (broadcastInDim S4096x1376x8 ![0, 1, 2] bcast_S4096x1376x1_S4096x1376x8_0_1_2 : (⟨S4096x1376x1, .i32⟩ : BufTy).Contents (Elt F) → (⟨S4096x1376x8, .i32⟩ : BufTy).Contents (Elt F)) v0
  let v3 := (broadcastInDim S4096x1376x8 ![0, 1, 2] bcast_S1x1x8_S4096x1376x8_0_1_2 : (⟨S1x1x8, .i32⟩ : BufTy).Contents (Elt F) → (⟨S4096x1376x8, .i32⟩ : BufTy).Contents (Elt F)) v1
  let v4 := (Host.shrsi : (⟨S4096x1376x8, .i32⟩ : BufTy).Contents (Elt F) → (⟨S4096x1376x8, .i32⟩ : BufTy).Contents (Elt F) → (⟨S4096x1376x8, .i32⟩ : BufTy).Contents (Elt F)) v2 v3
  let c_1 := (constantI S_ 32 15#32)
  let v5 := (broadcastInDim S4096x1376x8 ![] bcast_S_S4096x1376x8 : (⟨S_, .i32⟩ : BufTy).Contents (Elt F) → (⟨S4096x1376x8, .i32⟩ : BufTy).Contents (Elt F)) c_1
  let v6 := (andi : (⟨S4096x1376x8, .i32⟩ : BufTy).Contents (Elt F) → (⟨S4096x1376x8, .i32⟩ : BufTy).Contents (Elt F) → (⟨S4096x1376x8, .i32⟩ : BufTy).Contents (Elt F)) v4 v5
  let c_2 := (constantI S_ 32 0#32)
  let v7 := (broadcastInDim S8 ![] bcast_S_S8 : (⟨S_, .i32⟩ : BufTy).Contents (Elt F) → (⟨S8, .i32⟩ : BufTy).Contents (Elt F)) c_2
  let v8 := (cmpi .slt : (⟨S8, .i32⟩ : BufTy).Contents (Elt F) → (⟨S8, .i32⟩ : BufTy).Contents (Elt F) → (⟨S8, .i1⟩ : BufTy).Contents (Elt F)) c_0 v7
  let c_3 := (constantI S_ 32 8#32)
  let v9 := (broadcastInDim S8 ![] bcast_S_S8 : (⟨S_, .i32⟩ : BufTy).Contents (Elt F) → (⟨S8, .i32⟩ : BufTy).Contents (Elt F)) c_3
  let v10 := (addi : (⟨S8, .i32⟩ : BufTy).Contents (Elt F) → (⟨S8, .i32⟩ : BufTy).Contents (Elt F) → (⟨S8, .i32⟩ : BufTy).Contents (Elt F)) c_0 v9
  let v11 := (select : (⟨S8, .i1⟩ : BufTy).Contents (Elt F) → (⟨S8, .i32⟩ : BufTy).Contents (Elt F) → (⟨S8, .i32⟩ : BufTy).Contents (Elt F) → (⟨S8, .i32⟩ : BufTy).Contents (Elt F)) v8 v10 c_0
  let v12 := (broadcastInDim S8x1 ![0] bcast_S8_S8x1_0 : (⟨S8, .i32⟩ : BufTy).Contents (Elt F) → (⟨S8x1, .i32⟩ : BufTy).Contents (Elt F)) v11
  let v13 := ((fun x i => Host.gather gather_S4096x1376x8_S8x1_S4096x1376x8_01_2_n_n_2_1_409613761 x i) : (⟨S4096x1376x8, .i32⟩ : BufTy).Contents (Elt F) → (⟨S8x1, .i32⟩ : BufTy).Contents (Elt F) → (⟨S4096x1376x8, .i32⟩ : BufTy).Contents (Elt F)) v6 v12
  let v14 := shapeCast S4096x11008 v13 shapeCasts_S4096x1376x8_S4096x11008
  let v15 := (sitofp .f32 : (⟨S4096x11008, .i32⟩ : BufTy).Contents (Elt F) → (⟨S4096x11008, .f32⟩ : BufTy).Contents (Elt F)) v14
  let v16 := (broadcastInDim S32x1376x1 ![0, 1] bcast_S32x1376_S32x1376x1_0_1 : (⟨S32x1376, .i32⟩ : BufTy).Contents (Elt F) → (⟨S32x1376x1, .i32⟩ : BufTy).Contents (Elt F)) qz
  let v17 := (broadcastInDim S1x1x8 ![2] bcast_S8_S1x1x8_2 : (⟨S8, .i32⟩ : BufTy).Contents (Elt F) → (⟨S1x1x8, .i32⟩ : BufTy).Contents (Elt F)) c
  let v18 := (broadcastInDim S32x1376x8 ![0, 1, 2] bcast_S32x1376x1_S32x1376x8_0_1_2 : (⟨S32x1376x1, .i32⟩ : BufTy).Contents (Elt F) → (⟨S32x1376x8, .i32⟩ : BufTy).Contents (Elt F)) v16
  let v19 := (broadcastInDim S32x1376x8 ![0, 1, 2] bcast_S1x1x8_S32x1376x8_0_1_2 : (⟨S1x1x8, .i32⟩ : BufTy).Contents (Elt F) → (⟨S32x1376x8, .i32⟩ : BufTy).Contents (Elt F)) v17
  let v20 := (Host.shrsi : (⟨S32x1376x8, .i32⟩ : BufTy).Contents (Elt F) → (⟨S32x1376x8, .i32⟩ : BufTy).Contents (Elt F) → (⟨S32x1376x8, .i32⟩ : BufTy).Contents (Elt F)) v18 v19
  let c_4 := (constantI S_ 32 15#32)
  let v21 := (broadcastInDim S32x1376x8 ![] bcast_S_S32x1376x8 : (⟨S_, .i32⟩ : BufTy).Contents (Elt F) → (⟨S32x1376x8, .i32⟩ : BufTy).Contents (Elt F)) c_4
  let v22 := (andi : (⟨S32x1376x8, .i32⟩ : BufTy).Contents (Elt F) → (⟨S32x1376x8, .i32⟩ : BufTy).Contents (Elt F) → (⟨S32x1376x8, .i32⟩ : BufTy).Contents (Elt F)) v20 v21
  let c_5 := (constantI S_ 32 0#32)
  let v23 := (broadcastInDim S8 ![] bcast_S_S8 : (⟨S_, .i32⟩ : BufTy).Contents (Elt F) → (⟨S8, .i32⟩ : BufTy).Contents (Elt F)) c_5
  let v24 := (cmpi .slt : (⟨S8, .i32⟩ : BufTy).Contents (Elt F) → (⟨S8, .i32⟩ : BufTy).Contents (Elt F) → (⟨S8, .i1⟩ : BufTy).Contents (Elt F)) c_0 v23
  let c_6 := (constantI S_ 32 8#32)
  let v25 := (broadcastInDim S8 ![] bcast_S_S8 : (⟨S_, .i32⟩ : BufTy).Contents (Elt F) → (⟨S8, .i32⟩ : BufTy).Contents (Elt F)) c_6
  let v26 := (addi : (⟨S8, .i32⟩ : BufTy).Contents (Elt F) → (⟨S8, .i32⟩ : BufTy).Contents (Elt F) → (⟨S8, .i32⟩ : BufTy).Contents (Elt F)) c_0 v25
  let v27 := (select : (⟨S8, .i1⟩ : BufTy).Contents (Elt F) → (⟨S8, .i32⟩ : BufTy).Contents (Elt F) → (⟨S8, .i32⟩ : BufTy).Contents (Elt F) → (⟨S8, .i32⟩ : BufTy).Contents (Elt F)) v24 v26 c_0
  let v28 := (broadcastInDim S8x1 ![0] bcast_S8_S8x1_0 : (⟨S8, .i32⟩ : BufTy).Contents (Elt F) → (⟨S8x1, .i32⟩ : BufTy).Contents (Elt F)) v27
  let v29 := ((fun x i => Host.gather gather_S32x1376x8_S8x1_S32x1376x8_01_2_n_n_2_1_3213761 x i) : (⟨S32x1376x8, .i32⟩ : BufTy).Contents (Elt F) → (⟨S8x1, .i32⟩ : BufTy).Contents (Elt F) → (⟨S32x1376x8, .i32⟩ : BufTy).Contents (Elt F)) v22 v28
  let v30 := shapeCast S32x11008 v29 shapeCasts_S32x1376x8_S32x11008
  let v31 := (sitofp .f32 : (⟨S32x11008, .i32⟩ : BufTy).Contents (Elt F) → (⟨S32x11008, .f32⟩ : BufTy).Contents (Elt F)) v30
  let v32 := shapeCast S32x128x11008 v15 shapeCasts_S4096x11008_S32x128x11008
  let v33 := (broadcastInDim S32x1x11008 ![0, 2] bcast_S32x11008_S32x1x11008_0_2 : (⟨S32x11008, .f32⟩ : BufTy).Contents (Elt F) → (⟨S32x1x11008, .f32⟩ : BufTy).Contents (Elt F)) v31
  let v34 := (broadcastInDim S32x128x11008 ![0, 1, 2] bcast_S32x1x11008_S32x128x11008_0_1_2 : (⟨S32x1x11008, .f32⟩ : BufTy).Contents (Elt F) → (⟨S32x128x11008, .f32⟩ : BufTy).Contents (Elt F)) v33
  let v35 := (subf : (⟨S32x128x11008, .f32⟩ : BufTy).Contents (Elt F) → (⟨S32x128x11008, .f32⟩ : BufTy).Contents (Elt F) → (⟨S32x128x11008, .f32⟩ : BufTy).Contents (Elt F)) v32 v34
  let v36 := (broadcastInDim S32x1x11008 ![0, 2] bcast_S32x11008_S32x1x11008_0_2 : (⟨S32x11008, .f32⟩ : BufTy).Contents (Elt F) → (⟨S32x1x11008, .f32⟩ : BufTy).Contents (Elt F)) sc
  let v37 := (broadcastInDim S32x128x11008 ![0, 1, 2] bcast_S32x1x11008_S32x128x11008_0_1_2 : (⟨S32x1x11008, .f32⟩ : BufTy).Contents (Elt F) → (⟨S32x128x11008, .f32⟩ : BufTy).Contents (Elt F)) v36
  let v38 := (mulf : (⟨S32x128x11008, .f32⟩ : BufTy).Contents (Elt F) → (⟨S32x128x11008, .f32⟩ : BufTy).Contents (Elt F) → (⟨S32x128x11008, .f32⟩ : BufTy).Contents (Elt F)) v35 v37
  let v39 := shapeCast S4096x11008 v38 shapeCasts_S32x128x11008_S4096x11008
  v39

end Cert.ReferenceIdeal.RefValue

end
-- ==== Proof.RefRun.lean ====
/-
  The reference program's run, operation by operation.

  The reference is a straight line of 52 host operations on whole arrays and nothing else. Its first 48 operations
  build the dequantized weight matrix W (4096 rows, 11008 columns) from the packed weights, the packed zero points
  and the scales; the last four are the matrix product of the input x (4096 by 4096) with W, the bias vector
  (11008 entries) laid out first as one row and then repeated over the 4096 rows, and the entrywise sum of the two.

  Every operation writes one array of its own and reads arrays written before it, so what the last array holds at
  the end is the operations' functions composed: the product of x with the weight matrix, plus the repeated bias.
  The weight matrix is kept as ONE function of the three quantization arrays and is not opened: the composition of
  the first 48 operations is that function's definition, read off line by line. The five arguments are written by
  no operation and end as they began.
-/
import proofs.«144524_j79843442032788_1_alg».proof.Proof.Gen.ReferenceIdeal
import proofs.«144524_j79843442032788_1_alg».proof.Proof.RefWeights
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's 52 operations, in order: 48 that build the weight matrix, then the product, the bias as a row,
    the bias over all rows, and the sum. -/
abbrev ops : List (HloOp τ sig (Elt F)) :=
  [ StableHlo.nullary main_c (fun i => lit0 (S8.rowMajor i)),
    StableHlo.nullary main_c_0 (fun i => lit1 (S8.rowMajor i)),
    StableHlo.unary main_arg1 main_v0 (broadcastInDim S4096x1376x1 ![0, 1] bcast_S4096x1376_S4096x1376x1_0_1 : (⟨S4096x1376, .i32⟩ : BufTy).Contents (Elt F) → (⟨S4096x1376x1, .i32⟩ : BufTy).Contents (Elt F)),
    StableHlo.unary main_c main_v1 (broadcastInDim S1x1x8 ![2] bcast_S8_S1x1x8_2 : (⟨S8, .i32⟩ : BufTy).Contents (Elt F) → (⟨S1x1x8, .i32⟩ : BufTy).Contents (Elt F)),
    StableHlo.unary main_v0 main_v2 (broadcastInDim S4096x1376x8 ![0, 1, 2] bcast_S4096x1376x1_S4096x1376x8_0_1_2 : (⟨S4096x1376x1, .i32⟩ : BufTy).Contents (Elt F) → (⟨S4096x1376x8, .i32⟩ : BufTy).Contents (Elt F)),
    StableHlo.unary main_v1 main_v3 (broadcastInDim S4096x1376x8 ![0, 1, 2] bcast_S1x1x8_S4096x1376x8_0_1_2 : (⟨S1x1x8, .i32⟩ : BufTy).Contents (Elt F) → (⟨S4096x1376x8, .i32⟩ : BufTy).Contents (Elt F)),
    StableHlo.binary main_v2 main_v3 main_v4 (Host.shrsi : (⟨S4096x1376x8, .i32⟩ : BufTy).Contents (Elt F) → (⟨S4096x1376x8, .i32⟩ : BufTy).Contents (Elt F) → (⟨S4096x1376x8, .i32⟩ : BufTy).Contents (Elt F)),
    StableHlo.nullary main_c_1 (constantI S_ 32 15#32),
    StableHlo.unary main_c_1 main_v5 (broadcastInDim S4096x1376x8 ![] bcast_S_S4096x1376x8 : (⟨S_, .i32⟩ : BufTy).Contents (Elt F) → (⟨S4096x1376x8, .i32⟩ : BufTy).Contents (Elt F)),
    StableHlo.binary main_v4 main_v5 main_v6 (andi : (⟨S4096x1376x8, .i32⟩ : BufTy).Contents (Elt F) → (⟨S4096x1376x8, .i32⟩ : BufTy).Contents (Elt F) → (⟨S4096x1376x8, .i32⟩ : BufTy).Contents (Elt F)),
    StableHlo.nullary main_c_2 (constantI S_ 32 0#32),
    StableHlo.unary main_c_2 main_v7 (broadcastInDim S8 ![] bcast_S_S8 : (⟨S_, .i32⟩ : BufTy).Contents (Elt F) → (⟨S8, .i32⟩ : BufTy).Contents (Elt F)),
    StableHlo.binary main_c_0 main_v7 main_v8 (cmpi .slt : (⟨S8, .i32⟩ : BufTy).Contents (Elt F) → (⟨S8, .i32⟩ : BufTy).Contents (Elt F) → (⟨S8, .i1⟩ : BufTy).Contents (Elt F)),
    StableHlo.nullary main_c_3 (constantI S_ 32 8#32),
    StableHlo.unary main_c_3 main_v9 (broadcastInDim S8 ![] bcast_S_S8 : (⟨S_, .i32⟩ : BufTy).Contents (Elt F) → (⟨S8, .i32⟩ : BufTy).Contents (Elt F)),
    StableHlo.binary main_c_0 main_v9 main_v10 (addi : (⟨S8, .i32⟩ : BufTy).Contents (Elt F) → (⟨S8, .i32⟩ : BufTy).Contents (Elt F) → (⟨S8, .i32⟩ : BufTy).Contents (Elt F)),
    StableHlo.ternary main_v8 main_v10 main_c_0 main_v11 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v11 main_v12 (broadcastInDim S8x1 ![0] bcast_S8_S8x1_0 : (⟨S8, .i32⟩ : BufTy).Contents (Elt F) → (⟨S8x1, .i32⟩ : BufTy).Contents (Elt F)),
    StableHlo.binary main_v6 main_v12 main_v13 ((fun x i => Host.gather gather_S4096x1376x8_S8x1_S4096x1376x8_01_2_n_n_2_1_409613761 x i) : (⟨S4096x1376x8, .i32⟩ : BufTy).Contents (Elt F) → (⟨S8x1, .i32⟩ : BufTy).Contents (Elt F) → (⟨S4096x1376x8, .i32⟩ : BufTy).Contents (Elt F)),
    StableHlo.reshape main_v13 main_v14 rfl shapeCasts_S4096x1376x8_S4096x11008,
    StableHlo.unary main_v14 main_v15 (sitofp .f32 : (⟨S4096x11008, .i32⟩ : BufTy).Contents (Elt F) → (⟨S4096x11008, .f32⟩ : BufTy).Contents (Elt F)),
    StableHlo.unary main_arg2 main_v16 (broadcastInDim S32x1376x1 ![0, 1] bcast_S32x1376_S32x1376x1_0_1 : (⟨S32x1376, .i32⟩ : BufTy).Contents (Elt F) → (⟨S32x1376x1, .i32⟩ : BufTy).Contents (Elt F)),
    StableHlo.unary main_c main_v17 (broadcastInDim S1x1x8 ![2] bcast_S8_S1x1x8_2 : (⟨S8, .i32⟩ : BufTy).Contents (Elt F) → (⟨S1x1x8, .i32⟩ : BufTy).Contents (Elt F)),
    StableHlo.unary main_v16 main_v18 (broadcastInDim S32x1376x8 ![0, 1, 2] bcast_S32x1376x1_S32x1376x8_0_1_2 : (⟨S32x1376x1, .i32⟩ : BufTy).Contents (Elt F) → (⟨S32x1376x8, .i32⟩ : BufTy).Contents (Elt F)),
    StableHlo.unary main_v17 main_v19 (broadcastInDim S32x1376x8 ![0, 1, 2] bcast_S1x1x8_S32x1376x8_0_1_2 : (⟨S1x1x8, .i32⟩ : BufTy).Contents (Elt F) → (⟨S32x1376x8, .i32⟩ : BufTy).Contents (Elt F)),
    StableHlo.binary main_v18 main_v19 main_v20 (Host.shrsi : (⟨S32x1376x8, .i32⟩ : BufTy).Contents (Elt F) → (⟨S32x1376x8, .i32⟩ : BufTy).Contents (Elt F) → (⟨S32x1376x8, .i32⟩ : BufTy).Contents (Elt F)),
    StableHlo.nullary main_c_4 (constantI S_ 32 15#32),
    StableHlo.unary main_c_4 main_v21 (broadcastInDim S32x1376x8 ![] bcast_S_S32x1376x8 : (⟨S_, .i32⟩ : BufTy).Contents (Elt F) → (⟨S32x1376x8, .i32⟩ : BufTy).Contents (Elt F)),
    StableHlo.binary main_v20 main_v21 main_v22 (andi : (⟨S32x1376x8, .i32⟩ : BufTy).Contents (Elt F) → (⟨S32x1376x8, .i32⟩ : BufTy).Contents (Elt F) → (⟨S32x1376x8, .i32⟩ : BufTy).Contents (Elt F)),
    StableHlo.nullary main_c_5 (constantI S_ 32 0#32),
    StableHlo.unary main_c_5 main_v23 (broadcastInDim S8 ![] bcast_S_S8 : (⟨S_, .i32⟩ : BufTy).Contents (Elt F) → (⟨S8, .i32⟩ : BufTy).Contents (Elt F)),
    StableHlo.binary main_c_0 main_v23 main_v24 (cmpi .slt : (⟨S8, .i32⟩ : BufTy).Contents (Elt F) → (⟨S8, .i32⟩ : BufTy).Contents (Elt F) → (⟨S8, .i1⟩ : BufTy).Contents (Elt F)),
    StableHlo.nullary main_c_6 (constantI S_ 32 8#32),
    StableHlo.unary main_c_6 main_v25 (broadcastInDim S8 ![] bcast_S_S8 : (⟨S_, .i32⟩ : BufTy).Contents (Elt F) → (⟨S8, .i32⟩ : BufTy).Contents (Elt F)),
    StableHlo.binary main_c_0 main_v25 main_v26 (addi : (⟨S8, .i32⟩ : BufTy).Contents (Elt F) → (⟨S8, .i32⟩ : BufTy).Contents (Elt F) → (⟨S8, .i32⟩ : BufTy).Contents (Elt F)),
    StableHlo.ternary main_v24 main_v26 main_c_0 main_v27 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v27 main_v28 (broadcastInDim S8x1 ![0] bcast_S8_S8x1_0 : (⟨S8, .i32⟩ : BufTy).Contents (Elt F) → (⟨S8x1, .i32⟩ : BufTy).Contents (Elt F)),
    StableHlo.binary main_v22 main_v28 main_v29 ((fun x i => Host.gather gather_S32x1376x8_S8x1_S32x1376x8_01_2_n_n_2_1_3213761 x i) : (⟨S32x1376x8, .i32⟩ : BufTy).Contents (Elt F) → (⟨S8x1, .i32⟩ : BufTy).Contents (Elt F) → (⟨S32x1376x8, .i32⟩ : BufTy).Contents (Elt F)),
    StableHlo.reshape main_v29 main_v30 rfl shapeCasts_S32x1376x8_S32x11008,
    StableHlo.unary main_v30 main_v31 (sitofp .f32 : (⟨S32x11008, .i32⟩ : BufTy).Contents (Elt F) → (⟨S32x11008, .f32⟩ : BufTy).Contents (Elt F)),
    StableHlo.reshape main_v15 main_v32 rfl shapeCasts_S4096x11008_S32x128x11008,
    StableHlo.unary main_v31 main_v33 (broadcastInDim S32x1x11008 ![0, 2] bcast_S32x11008_S32x1x11008_0_2 : (⟨S32x11008, .f32⟩ : BufTy).Contents (Elt F) → (⟨S32x1x11008, .f32⟩ : BufTy).Contents (Elt F)),
    StableHlo.unary main_v33 main_v34 (broadcastInDim S32x128x11008 ![0, 1, 2] bcast_S32x1x11008_S32x128x11008_0_1_2 : (⟨S32x1x11008, .f32⟩ : BufTy).Contents (Elt F) → (⟨S32x128x11008, .f32⟩ : BufTy).Contents (Elt F)),
    StableHlo.binary main_v32 main_v34 main_v35 (subf : (⟨S32x128x11008, .f32⟩ : BufTy).Contents (Elt F) → (⟨S32x128x11008, .f32⟩ : BufTy).Contents (Elt F) → (⟨S32x128x11008, .f32⟩ : BufTy).Contents (Elt F)),
    StableHlo.unary main_arg3 main_v36 (broadcastInDim S32x1x11008 ![0, 2] bcast_S32x11008_S32x1x11008_0_2 : (⟨S32x11008, .f32⟩ : BufTy).Contents (Elt F) → (⟨S32x1x11008, .f32⟩ : BufTy).Contents (Elt F)),
    StableHlo.unary main_v36 main_v37 (broadcastInDim S32x128x11008 ![0, 1, 2] bcast_S32x1x11008_S32x128x11008_0_1_2 : (⟨S32x1x11008, .f32⟩ : BufTy).Contents (Elt F) → (⟨S32x128x11008, .f32⟩ : BufTy).Contents (Elt F)),
    StableHlo.binary main_v35 main_v37 main_v38 (mulf : (⟨S32x128x11008, .f32⟩ : BufTy).Contents (Elt F) → (⟨S32x128x11008, .f32⟩ : BufTy).Contents (Elt F) → (⟨S32x128x11008, .f32⟩ : BufTy).Contents (Elt F)),
    StableHlo.reshape main_v38 main_v39 rfl shapeCasts_S32x128x11008_S4096x11008,
    StableHlo.binary main_arg0 main_v39 main_v40 ((fun l r => Host.dotGeneral dot_S4096x4096_S4096x11008_S4096x11008_1_0_0_1_n_n none l r) : (⟨S4096x4096, .f32⟩ : BufTy).Contents (Elt F) → (⟨S4096x11008, .f32⟩ : BufTy).Contents (Elt F) → (⟨S4096x11008, .f32⟩ : BufTy).Contents (Elt F)),
    StableHlo.unary main_arg4 main_v41 (broadcastInDim S1x11008 ![1] bcast_S11008_S1x11008_1 : (⟨S11008, .f32⟩ : BufTy).Contents (Elt F) → (⟨S1x11008, .f32⟩ : BufTy).Contents (Elt F)),
    StableHlo.unary main_v41 main_v42 (broadcastInDim S4096x11008 ![0, 1] bcast_S1x11008_S4096x11008_0_1 : (⟨S1x11008, .f32⟩ : BufTy).Contents (Elt F) → (⟨S4096x11008, .f32⟩ : BufTy).Contents (Elt F)),
    StableHlo.binary main_v40 main_v42 main_v43 (addf : (⟨S4096x11008, .f32⟩ : BufTy).Contents (Elt F) → (⟨S4096x11008, .f32⟩ : BufTy).Contents (Elt F) → (⟨S4096x11008, .f32⟩ : BufTy).Contents (Elt F)) ]

/-- The program is the straight line of these operations. -/
theorem main_eq (c : Dev nD) : main (F := F) c = seq ops := rfl
/-- No array of the program is scoped to a region. -/
theorem scopedRefs_eq : (Finset.univ.filter fun b : Ref sig .tc => b.isScoped) = ∅ := by decide
/-- The program has no semaphore, so none is scoped. -/
theorem scopedSems_eq : (Finset.univ.filter fun sm : SemLoc sig => sm.isScoped .tc) = ∅ := by decide
/-- Every operation reads and writes arrays of the program only. -/
theorem ops_sub : (ops : List (HloOp τ sig (Elt F))).Forall fun op => op.bufs ⊆ tcRefs τ sig :=
  ⟨nullary_bufs_sub .., nullary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., reshape_bufs_sub .., unary_bufs_sub .., unary_bufs_sub .., binary_bufs_sub .., unary_bufs_sub .., unary_bufs_sub .., binary_bufs_sub .., reshape_bufs_sub .., binary_bufs_sub .., unary_bufs_sub .., unary_bufs_sub .., binary_bufs_sub ..⟩

/-- From any memory with zero counters, every weakly fair execution of the program ends with the last array at the
    product of the input with the weight matrix plus the bias repeated over the rows, and the five arguments
    unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43)
        = addf (Host.dotGeneral dot_S4096x4096_S4096x11008_S4096x11008_1_0_0_1_n_n none (m ((c.tc : Thread nD τ).loc main_arg0))
                  (weights (m ((c.tc : Thread nD τ).loc main_arg1)) (m ((c.tc : Thread nD τ).loc main_arg2)) (m ((c.tc : Thread nD τ).loc main_arg3))))
               (broadcastInDim S4096x11008 ![0, 1] bcast_S1x11008_S4096x11008_0_1
                  (broadcastInDim S1x11008 ![1] bcast_S11008_S1x11008_1 (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v43).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.RefValue

end
-- ==== Proof.RefValue.lean ====
/-
  The reference program computes the specified matrix product with bias.

  At the exact extended reals the reference's last array is, entry by entry,

      out(r, o) = Σ_k x(r, k) · W(k, o) + bias(o),        k over the 4096 columns of x,

  where W is the dequantized weight matrix (one function of the three quantization arrays, never opened here).
  Three facts give it. The entrywise sum of two arrays reads at (r, o) as the sum of their entries there. The plain
  product of a 4096 by 4096 matrix with a 4096 by 11008 matrix, contracting the first operand's columns with the
  second's rows, reads at (r, o) as the sum over the shared coordinate k of x(r, k) · W(k, o). The bias vector laid
  out as a single row (position o of the vector at column o) and then repeated over the 4096 rows reads at (r, o) as
  bias(o): the single row's unit axis is read at 0, its column axis at the result's column.
-/
import proofs.«144524_j79843442032788_1_alg».proof.Proof.RefRun
import proofs.«144524_j79843442032788_1_alg».proof.Proof.GemmSpec
import proofs.«144524_j79843442032788_1_alg».proof.Proof.LibPlainProduct
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-- The bias vector as one row, repeated over the rows, read at row `r` and column `o`: entry `o` of the vector.
    The outer repetition reads the single row at (0, o) — its first axis has extent one —, and the single row reads
    the vector at o. -/
theorem bias_rows_apply (b : FVec Ideal S11008 .f32) (r : Fin 4096) (o : Fin 11008) :
    broadcastInDim S4096x11008 ![0, 1] bcast_S1x11008_S4096x11008_0_1
        (broadcastInDim S1x11008 ![1] bcast_S11008_S1x11008_1 b) (ix2 r o) = b (ix1 o) :=
  (broadcastInDim_apply ![0, 1] bcast_S1x11008_S4096x11008_0_1 _ (ix2 r o) (ix2 (0 : Fin 1) o)
      (fun a => match a with | ⟨0, _⟩ => rfl | ⟨1, _⟩ => rfl)).trans
    (broadcastInDim_apply ![1] bcast_S11008_S1x11008_1 b (ix2 (0 : Fin 1) o) (ix1 o)
      (fun a => match a with | ⟨0, _⟩ => rfl))

/-- The reference's composed term — the product of `l` with `w` plus the bias `b` repeated over the rows — is the
    specified result: at row `r` and column `o` the sum's two entries are the contraction sum and `b o`. -/
theorem term_eq (l : FVec Ideal S4096x4096 .f32) (w : FVec Ideal S4096x11008 .f32) (b : FVec Ideal S11008 .f32) :
    addf (Host.dotGeneral (F := Ideal) dot_S4096x4096_S4096x11008_S4096x11008_1_0_0_1_n_n none l w)
         (broadcastInDim S4096x11008 ![0, 1] bcast_S1x11008_S4096x11008_0_1
            (broadcastInDim S1x11008 ![1] bcast_S11008_S1x11008_1 b))
      = Cert.GemmSpec.gemmBias l w b := by
  refine Cert.GemmSpec.eq_gemmBias _ _ _ _ fun r o => ?_
  refine (addf_apply _ _ _).trans ?_
  exact congrArg₂ (· + ·)
    (dotGeneral_plain_apply dot_S4096x4096_S4096x11008_S4096x11008_1_0_0_1_n_n rfl rfl rfl rfl rfl rfl none .single l w r o)
    (bias_rows_apply b r o)

/-- From any memory with zero counters, every weakly fair execution of the reference ends with its last array at the
    specified product-with-bias of the input, the weight matrix and the bias, and the five arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43)
        = Cert.GemmSpec.gemmBias (m ((c.tc : Thread nD τ).loc main_arg0))
            (weights (F := Ideal) (m ((c.tc : Thread nD τ).loc main_arg1)) (m ((c.tc : Thread nD τ).loc main_arg2)) (m ((c.tc : Thread nD τ).loc main_arg3)))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (term_eq _ _ _), (h c).2⟩) (run_term m ρ)

end Cert.ReferenceIdeal.RefValue

end
-- ==== Proof.WeightsAgree.lean ====
/-
  The two programs build the weight matrix by the same operations, so from equal packed weights, zero points and
  scales they build the same matrix.
-/
import proofs.«144524_j79843442032788_1_alg».proof.Proof.KerWeights
import proofs.«144524_j79843442032788_1_alg».proof.Proof.RefWeights
import Idealize.ShloMosaic.PureOps.Ideal

noncomputable section

namespace Cert.Proof.Weights

open Idealize.ShloMosaic

variable [Cert.KernelIdeal.Facts] [Cert.ReferenceIdeal.Facts]

/-- Same operations, same arguments, same matrix. -/
theorem weights_agree (qw : (⟨Cert.KernelIdeal.S4096x1376, .i32⟩ : BufTy).Contents (Elt Ideal))
    (qz : (⟨Cert.KernelIdeal.S32x1376, .i32⟩ : BufTy).Contents (Elt Ideal))
    (sc : (⟨Cert.KernelIdeal.S32x11008, .f32⟩ : BufTy).Contents (Elt Ideal)) :
    Cert.KernelIdeal.HostValue.weights (F := Ideal) qw qz sc = Cert.ReferenceIdeal.RefValue.weights (F := Ideal) qw qz sc :=
  rfl

end Cert.Proof.Weights

end
-- ==== Proof.lean ====
/-
  A 4-bit grouped-quantized linear layer: out = x · W + bias, with x of 4096 × 4096 floats, W the 4096 × 11008 weight
  matrix recovered from packed 4-bit values, per-group zero points and scales (W(k, o) = (w(k, o) − z(k / 128, o)) · s(k / 128, o)),
  and a bias of length 11008.

  Both programs recover W by the same host operations from the same packed arguments, so W enters as one function of the
  arguments that is never opened (Proof/KerWeights.lean, Proof/RefWeights.lean, Proof/WeightsAgree.lean).

  The reference multiplies and adds in one piece: out(r, o) = Σ_{k < 4096} x(r, k) · W(k, o) + bias(o)
  (Proof/RefRun.lean, Proof/RefValue.lean).

  The kernel pads W and the bias with 256 extra columns, cuts the product into 4 × 11 output blocks of 1024 × 1024 and, for
  each, walks the contraction axis in 4 steps of 1024, keeping a running total that starts from zero, adds one block product
  per step and, after the last, receives the bias row (Proof/KerPieces.lean, Proof/KerPayload.lean, Proof/KerAccum.lean);
  the blocks tile the padded result (Proof/KerCover.lean, Proof/KerFinal.lean), of which the first 11008 columns are kept,
  where the padded arrays are the unpadded ones (Proof/KerHost.lean, Proof/KerTail.lean, Proof/KerRun.lean).

  On the extended reals the changes of float format are the identity, and a sum taken block by block from zero is the whole
  sum because addition is commutative and associative (no entry needs to be finite for that), so both programs compute the
  one function Proof/GemmSpec.lean states.  The idealization rewrote nothing, so that it preserves the kernel is trivial;
  the three programs run, fault-free and leaving their arguments unchanged, by the generated frame proofs and the reference's run.
-/
import proofs.«144524_j79843442032788_1_alg».proof.Defs
import proofs.«144524_j79843442032788_1_alg».proof.Proof.Gen.Kernel
import proofs.«144524_j79843442032788_1_alg».proof.Proof.Gen.Kernel.Frame
import proofs.«144524_j79843442032788_1_alg».proof.Proof.Gen.KernelIdeal
import proofs.«144524_j79843442032788_1_alg».proof.Proof.Gen.KernelIdeal.Frame
import proofs.«144524_j79843442032788_1_alg».proof.Proof.Gen.ReferenceIdeal
import proofs.«144524_j79843442032788_1_alg».proof.Proof.Gen.Pre_finite_inputs
import proofs.«144524_j79843442032788_1_alg».proof.Proof.KerRun
import proofs.«144524_j79843442032788_1_alg».proof.Proof.RefValue
import proofs.«144524_j79843442032788_1_alg».proof.Proof.WeightsAgree
import Idealize.ShloMosaic.Adequacy
import Idealize.ShloMosaic.Init

noncomputable section

namespace Cert.Proof

open Idealize.ShloMosaic Idealize.SL.Sem

/-- The word-level kernel runs, fault-free, its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From arguments that agree, both programs end with the product-plus-bias of the same x, the same weight matrix and the
    same bias. -/
theorem algebraic : Cert.algebraic_KernelIdeal_ReferenceIdeal := by
  intro m ρ m' ρ' _ hagree
  refine ⟨fun c => Cert.GemmSpec.gemmBias (m ((c.tc : Thread Cert.KernelIdeal.nD Cert.KernelIdeal.τ).loc Cert.KernelIdeal.main_arg0))
      (Cert.KernelIdeal.HostValue.weights (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)),
    Cert.KernelIdeal.RunValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]
  exact congrArg (fun w => Cert.GemmSpec.gemmBias (m ((c.tc : Thread Cert.KernelIdeal.nD Cert.KernelIdeal.τ).loc Cert.KernelIdeal.main_arg0)) w (m ((c.tc : Thread Cert.KernelIdeal.nD Cert.KernelIdeal.τ).loc Cert.KernelIdeal.main_arg4)))
    (Cert.Proof.Weights.weights_agree (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
